-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x128 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S50000 : Shape := ⟨1, ![50000]⟩
abbrev S800000x1 : Shape := ⟨2, ![800000, 1]⟩
abbrev S802816 : Shape := ⟨1, ![802816]⟩
abbrev S802816x1 : Shape := ⟨2, ![802816, 1]⟩
abbrev S802816x128 : Shape := ⟨2, ![802816, 128]⟩
abbrev S802816x256 : Shape := ⟨2, ![802816, 256]⟩
abbrev S4096x256 : Shape := ⟨2, ![4096, 256]⟩
abbrev S4096x128 : Shape := ⟨2, ![4096, 128]⟩
abbrev S4096x1 : Shape := ⟨2, ![4096, 1]⟩

abbrev nBuf : Space → Nat
  | .hbm => 82
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S256x128, .f32⟩
  | .hbm, ⟨12, _⟩ => ⟨S128x256, .f32⟩
  | .hbm, ⟨13, _⟩ => ⟨S256, .f32⟩
  | .hbm, ⟨14, _⟩ => ⟨S1x256, .f32⟩
  | .hbm, ⟨15, _⟩ => ⟨S50000x256, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S_, .i32⟩
  | .hbm, ⟨53, _⟩ => ⟨S_, .i32⟩
  | .hbm, ⟨54, _⟩ => ⟨S802816, .i32⟩
  | .hbm, ⟨55, _⟩ => ⟨S_, .i32⟩
  | .hbm, ⟨56, _⟩ => ⟨S_, .i32⟩
  | .hbm, ⟨57, _⟩ => ⟨S802816, .i32⟩
  | .hbm, ⟨58, _⟩ => ⟨S_, .i32⟩
  | .hbm, ⟨59, _⟩ => ⟨S_, .f32⟩
  | .hbm, ⟨60, _⟩ => ⟨S802816, .f32⟩
  | .hbm, ⟨61, _⟩ => ⟨S802816x1, .f32⟩
  | .hbm, ⟨62, _⟩ => ⟨S_, .i32⟩
  | .hbm, ⟨63, _⟩ => ⟨S_, .f32⟩
  | .hbm, ⟨64, _⟩ => ⟨S802816x128, .f32⟩
  | .hbm, ⟨65, _⟩ => ⟨S_, .i32⟩
  | .hbm, ⟨66, _⟩ => ⟨S802816, .i32⟩
  | .hbm, ⟨67, _⟩ => ⟨S802816, .i1⟩
  | .hbm, ⟨68, _⟩ => ⟨S_, .i32⟩
  | .hbm, ⟨69, _⟩ => ⟨S802816, .i32⟩
  | .hbm, ⟨70, _⟩ => ⟨S802816, .i32⟩
  | .hbm, ⟨71, _⟩ => ⟨S802816, .i32⟩
  | .hbm, ⟨72, _⟩ => ⟨S802816x1, .i32⟩
  | .hbm, ⟨73, _⟩ => ⟨S802816x256, .f32⟩
  | .hbm, ⟨74, _⟩ => ⟨S802816x256, .f32⟩
  | .hbm, ⟨75, _⟩ => ⟨S_, .f32⟩
  | .hbm, ⟨76, _⟩ => ⟨S50000x256, .f32⟩
  | .hbm, ⟨77, _⟩ => ⟨S802816x1, .i32⟩
  | .hbm, ⟨78, _⟩ => ⟨S50000x256, .f32⟩
  | .hbm, ⟨79, _⟩ => ⟨S50000x256, .f32⟩
  | .hbm, ⟨80, _⟩ => ⟨S50000x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S4096x256, .f32⟩
  | .local _ .vmem, ⟨7, _⟩ => ⟨S4096x256, .f32⟩
  | .local _ .vmem, ⟨8, _⟩ => ⟨S4096x128, .f32⟩
  | .local _ .vmem, ⟨9, _⟩ => ⟨S4096x128, .f32⟩
  | .local _ .vmem, ⟨10, _⟩ => ⟨S4096x1, .f32⟩
  | .local _ .vmem, ⟨11, _⟩ => ⟨S4096x1, .f32⟩
  | .local _ .vmem, ⟨12, _⟩ => ⟨S4096x256, .f32⟩
  | .local _ .vmem, ⟨13, _⟩ => ⟨S4096x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_call1_v0 : Ref sig .tc := ⟨.hbm, 53, rfl⟩
abbrev main_v34 : Ref sig .tc := ⟨.hbm, 54, rfl⟩
abbrev main_c_8 : Ref sig .tc := ⟨.hbm, 55, rfl⟩
abbrev main_call2_v0 : Ref sig .tc := ⟨.hbm, 56, rfl⟩
abbrev main_v35 : Ref sig .tc := ⟨.hbm, 57, rfl⟩
abbrev main_c_9 : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_call4_v0 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_c_12 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S256x128_d0 : Shape.Concatenates [S128x128, S128x128] S256x128 0
  transposes_S256x128_S128x256_1_0 : S256x128.Transposes [1, 0] S128x256
  concatenates_S128_S128_S256_d0 : Shape.Concatenates [S128, S128] S256 0
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S802816_028160 : S800000.Pads (![0] : Fin 1 → Nat) ![2816] ![0] S802816
  h_S_ : 0 < S_.numel
  shapeCasts_S802816_S802816x1 : S802816.ShapeCasts S802816x1
  pads_S800000x128_S802816x128_028160_000 : S800000x128.Pads (![0, 0] : Fin 2 → Nat) ![2816, 0] ![0, 0] S802816x128
  bcast_S_S802816 : S_.BroadcastsInDim S802816 (![] : Fin 0 → Fin S802816.rank)
  bcast_S802816_S802816x1_0 : S802816.BroadcastsInDim S802816x1 (![0] : Fin 1 → Fin S802816x1.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  slices_S4096x256_o0_0_S4096x128 : S4096x256.Slices ![0, 0] S4096x128
  broadcasts_S4096x1_S4096x128 : S4096x1.Broadcasts S4096x128
  slices_S4096x256_o0_128_S4096x128 : S4096x256.Slices ![0, 128] S4096x128
  inb_S4096x256_S4096x128_0_0 : ∀ a, (![0, 0] : Fin 2 → Nat) a + S4096x128.size a ≤ S4096x256.size a
  inb_S4096x256_S4096x128_0_128 : ∀ a, (![0, 128] : Fin 2 → Nat) a + S4096x128.size a ≤ S4096x256.size a
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  dot_S5000x128_S128x256_S5000x256_1_0_0_1_n_n_wf : DotDims.WF S5000x128 S128x256 S5000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S802816x1_S802816x256_1_0_n_n_0_1_1256_wf : GatherDims.WF S50000x256 S802816x1 S802816x256 [1] [0] [] [0] [] 1 ![1, 256]
  scatter_S50000x256_S802816x1_S802816x256_1_0_0_1_wf : ScatterDims.WF S50000x256 S802816x1 S802816x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S802816x256.size a
  hwx1_0 : ∀ i : grid1.Coords, EltTy.bits .f32 = 32 ∨ (Rect.block (s := S802816x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S802816x128.size a
  hwx1_1 : ∀ i : grid1.Coords, EltTy.bits .f32 = 32 ∨ (Rect.block (s := S802816x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S802816x1.size a
  hwx1_2 : ∀ i : grid1.Coords, EltTy.bits .f32 = 32 ∨ (Rect.block (s := S802816x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S802816x256.size a
  hwx1_3 : ∀ i : grid1.Coords, EltTy.bits .f32 = 32 ∨ (Rect.block (s := S802816x256) S4096x256.size (cc1_transform_3 i) (hinb1_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S802816x1_S802816x256_1_0_n_n_0_1_1256 : GatherDims S50000x256 S802816x1 S802816x256 where
  offsetDims := [1]
  collapsedSliceDims := [0]
  operandBatchingDims := []
  startIndicesBatchingDims := []
  startIndexMap := [0]
  indexVectorDim := 1
  sliceSizes := ![1, 256]
  wf := gather_S50000x256_S802816x1_S802816x256_1_0_n_n_0_1_1256_wf
def scatter_S50000x256_S802816x1_S802816x256_1_0_0_1 : ScatterDims S50000x256 S802816x1 S802816x256 where
  updateWindowDims := [1]
  insertedWindowDims := [0]
  scatterDimsToOperandDims := [0]
  indexVectorDim := 1
  wf := scatter_S50000x256_S802816x1_S802816x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S50000x128, .f32⟩
  | 9 => ⟨S1x128, .f32⟩
  | 10 => ⟨S50000x128, .f32⟩
  | 11 => ⟨S50000x128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S1x800000, .i32⟩
  | 86 => ⟨S800000, .i32⟩
  | 87 => ⟨S1x800000, .i32⟩
  | 88 => ⟨S800000, .i32⟩
  | 89 => ⟨S_, .f32⟩
  | 90 => ⟨S800000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .i1⟩
  | 98 => ⟨S_, .f32⟩
  | 99 => ⟨S50000, .f32⟩
  | 100 => ⟨S50000, .f32⟩
  | 101 => ⟨S50000, .f32⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S50000, .f32⟩
  | 110 => ⟨S50000, .f32⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000, .f32⟩
  | 6 => ⟨S800000, .f32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x128, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_cst_19 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_call3_v0 : Ref sig .tc := ⟨.hbm, 113, rfl⟩
abbrev main_call3_v1 : Ref sig .tc := ⟨.hbm, 114, rfl⟩
abbrev main_v77 : Ref sig .tc := ⟨.hbm, 115, rfl⟩
abbrev main_c_21 : Ref sig .tc := ⟨.hbm, 116, rfl⟩
abbrev main_v78 : Ref sig .tc := ⟨.hbm, 117, rfl⟩
abbrev main_v79 : Ref sig .tc := ⟨.hbm, 118, rfl⟩
abbrev main_c_22 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_23 : Ref sig .tc := ⟨.hbm, 125, rfl⟩
abbrev main_v85 : Ref sig .tc := ⟨.hbm, 126, rfl⟩
abbrev main_v86 : Ref sig .tc := ⟨.hbm, 127, rfl⟩
abbrev main_c_24 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_25 : Ref sig .tc := ⟨.hbm, 136, rfl⟩
abbrev main_v94 : Ref sig .tc := ⟨.hbm, 137, rfl⟩
abbrev main_v95 : Ref sig .tc := ⟨.hbm, 138, rfl⟩
abbrev main_c_26 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_27 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel program's run with its two results named.

  The program is a chain of fifteen segments: stretches of host operations and the two pallas_calls.  Run from any launch
  memory with zero counters, every weakly fair execution terminates without a fault; at the end every buffer that no
  region scopes holds the contents of the last segment boundary, the fold of the segments over the launch memory.  So
  the two result buffers end at that fold read at their references, and the seven argument arrays end as launched.
-/
import proofs.«174591_j22574348108072_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the two results at the last
    boundary's contents and the arguments as launched. -/
theorem run_values : θ_run defs (onTc (τ := τ) (main (F := F))) ⟨m, fun _ => 0, ρ⟩ (fun r => ∀ c : Dev nD,
      r.2.mem ((c.tc : Thread nD τ).loc main_v51) = W15 m ρ c (Proc.devRef .tc main_v51)
      ∧ r.2.mem ((c.tc : Thread nD τ).loc main_v52) = W15 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v51 (by decide)),
       h c _ (mem_uc main_v52 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.Gcn.KernelRun

end
-- ==== Proof.LibGatherRows.lean ====
/-
  Entries and rows picked along the first axis by a column of start indices, read at an index.

  `x[idx]` along the first axis lowers to a gather whose start indices form a column [e, 1]: one start index per
  result row. StableHLO reads each start index as a signed integer and clamps it so that the slice fits, here into
  the operand's row range [0, n - 1]. So for a flat operand [n] the result's entry r is the operand's entry whose
  number is the clamped r-th start index; for a matrix operand [n, d] taken a whole row at a time, the result's entry
  (r, j) is the operand's entry (clamped r-th start index, j).
-/
import Idealize.ShloMosaic.Lib.ValueIdx

noncomputable section

namespace Cert.LibGatherRows

open Idealize.ShloMosaic Idealize.ShloMosaic.ValueIdx

variable {α : Type}

/-- The row a start word names among n rows: the word read as a signed integer, clamped into [0, n - 1]. -/
def rowOf (n : Nat) (hn : 0 < n) {w : Nat} (b : BitVec w) : Fin n := ⟨min b.toInt.toNat (n - 1), by omega⟩

/-- The dimension numbers of `x[idx]` for a flat operand [n] and a column [e, 1] of start indices: result [e]. -/
abbrev pickDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- The gather of a flat operand read at r: the operand at the row the r-th start index names. -/
theorem gather_pick_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (r : Fin e) :
    Host.gather (pickDims n e wf) x idx (ix1 r) = x (ix1 (rowOf n hn (idx (ix2 r (0 : Fin 1))))) := by
  unfold Host.gather
  congr 1
  funext a
  obtain rfl : a = 0 := Subsingleton.elim _ _
  refine Fin.ext ?_
  show (pickDims n e wf).start (ix1 r) idx 0 + (pickDims n e wf).batchCoord (ix1 r) 0 + (pickDims n e wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n e wf).startIndexMap from List.mem_singleton.mpr rfl)]
  have hsi : (pickDims n e wf).siIdx (ix1 r) ⟨List.idxOf (0 : Fin 1) (pickDims n e wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `x[idx]` for a matrix operand [n, d] taken a row at a time and a column [e, 1] of start
    indices: result [e, d]. -/
abbrev rowsDims (n d e : Nat) (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

/-- The gather of whole rows read at (r, j): the operand at (the row the r-th start index names, j). -/
theorem gather_rows_apply {n d e w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (r : Fin e) (j : Fin d) :
    Host.gather (rowsDims n d e wf) x idx (ix2 r j) = x (ix2 (rowOf n hn (idx (ix2 r (0 : Fin 1)))) j) := by
  have hne : ¬ (1 : Fin 2) ∈ ([0] : List (Fin 2)) := fun h => absurd (List.mem_singleton.mp h) (by decide)
  have h0 : (rowsDims n d e wf).start (ix2 r j) idx (0 : Fin 2) + (rowsDims n d e wf).batchCoord (ix2 r j) (0 : Fin 2)
      + (rowsDims n d e wf).offCoord (ix2 r j) (0 : Fin 2) = (rowOf n hn (idx (ix2 r (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n d e wf).startIndexMap from List.mem_singleton.mpr rfl)]
    have hsi : (rowsDims n d e wf).siIdx (ix2 r j) ⟨List.idxOf (0 : Fin 2) (rowsDims n d e wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : (rowsDims n d e wf).start (ix2 r j) idx (1 : Fin 2) + (rowsDims n d e wf).batchCoord (ix2 r j) (1 : Fin 2)
      + (rowsDims n d e wf).offCoord (ix2 r j) (1 : Fin 2) = j.val := by
    have hs : (rowsDims n d e wf).start (ix2 r j) idx (1 : Fin 2) = 0 := by
      unfold GatherDims.start
      rw [dif_neg (show ¬ (1 : Fin 2) ∈ (rowsDims n d e wf).startIndexMap from hne)]
    have hk : (1 : Fin 2) ∈ (rowsDims n d e wf).sKept :=
      (GatherDims.mem_sKept _ _).mpr ⟨hne, List.not_mem_nil⟩
    have ho : (rowsDims n d e wf).offCoord (ix2 r j) (1 : Fin 2) = j.val := by
      unfold GatherDims.offCoord
      rw [dif_pos hk]
      rfl
    rw [hs, GatherDims.batchCoord_eq_zero _ _ _ List.not_mem_nil, ho, Nat.zero_add]
  unfold Host.gather
  congr 1
  funext a
  refine Fin.ext ?_
  match a with
  | ⟨0, _⟩ => exact h0
  | ⟨1, _⟩ => exact h1

end Cert.LibGatherRows

end
-- ==== Proof.Spec.lean ====
/-
  The graph convolution both programs compute, entry by entry, over the extended reals.

  A node's feature row is projected by a weight matrix and a bias: lin x W b n j = (sum over k of x(n,k) * W(j,k)) + b j.
  An edge e runs from the node named by the word edge_index(0,e) to the node named by edge_index(1,e); a word names a
  node as a row lookup reads it (a negative word wraps around by the node count, then the word is clamped into the
  node range).  With deg the number of edges into each node, dis n = 1/sqrt(max(deg n, 1)) where deg n > 0 and 0
  elsewhere, the edge's weight is nrm e = dis(source) * dis(target), its message msg e j = nrm e * (lin(source, j) +
  edge_attr(e, j)), and the output at (n, j) is the sum of the messages of the edges whose target word, read as a
  signed number, is n, plus the node's own projection lin(n, j).
-/
import Idealize.ShloMosaic.PureOps.Ideal
import Idealize.ShloMosaic.Lib.ValueIdx
import proofs.«174591_j22574348108072_1_alg».proof.Proof.LibGatherRows

noncomputable section

open scoped BigOperators

namespace Cert.Gcn

open Idealize.ShloMosaic Idealize.ShloMosaic.ValueIdx Cert.LibGatherRows

/-- A negative index word wraps around by the number of nodes. -/
def wrap (v : BitVec 32) : BitVec 32 := Scalar.select (IntOp.cmpi .slt v 0#32) (IntOp.addi v 50000#32) v

/-- The node an index word names when a row is looked up: wrapped, then clamped into the node range. -/
def node (v : BitVec 32) : Fin 50000 := rowOf 50000 (by decide) (wrap v)

/-- The projection of node n's features at output channel j. -/
def lin (x : (⟨2, ![50000, 128]⟩ : Shape).Idx → EReal) (W : (⟨2, ![128, 128]⟩ : Shape).Idx → EReal)
    (b : (⟨1, ![128]⟩ : Shape).Idx → EReal) (n : Fin 50000) (j : Fin 128) : EReal :=
  (∑ k : Fin 128, x (ix2 n k) * W (ix2 j k)) + b (ix1 j)

/-- 1/sqrt(max(deg, one)) where deg > 0, and zero elsewhere; one and zero are the float words both programs spell. -/
def dis (deg : Fin 50000 → EReal) (n : Fin 50000) : EReal :=
  Scalar.select (Ideal.cmp .ogt (deg n) (Ideal.ofBits .f32 0x00000000#32))
    (Ideal.rsqrt (max (deg n) (Ideal.ofBits .f32 0x3F800000#32))) (Ideal.ofBits .f32 0x00000000#32)

/-- The weight of edge e: the product of its two endpoints' factors. -/
def nrm (deg : Fin 50000 → EReal) (ei : IVec ⟨2, ![2, 800000]⟩ 32) (e : Fin 800000) : EReal :=
  dis deg (node (ei (ix2 (0 : Fin 2) e))) * dis deg (node (ei (ix2 (1 : Fin 2) e)))

/-- The message of edge e at channel j. -/
def msg (deg : Fin 50000 → EReal) (x : (⟨2, ![50000, 128]⟩ : Shape).Idx → EReal) (ei : IVec ⟨2, ![2, 800000]⟩ 32)
    (ea : (⟨2, ![800000, 128]⟩ : Shape).Idx → EReal) (W : (⟨2, ![128, 128]⟩ : Shape).Idx → EReal)
    (b : (⟨1, ![128]⟩ : Shape).Idx → EReal) (e : Fin 800000) (j : Fin 128) : EReal :=
  nrm deg ei e * (lin x W b (node (ei (ix2 (0 : Fin 2) e))) j + ea (ix2 e j))

/-- The output at node n, channel j: the messages of the edges into n, summed from zero, plus n's own projection. -/
def out (deg : Fin 50000 → EReal) (x : (⟨2, ![50000, 128]⟩ : Shape).Idx → EReal) (ei : IVec ⟨2, ![2, 800000]⟩ 32)
    (ea : (⟨2, ![800000, 128]⟩ : Shape).Idx → EReal) (W : (⟨2, ![128, 128]⟩ : Shape).Idx → EReal)
    (b : (⟨1, ![128]⟩ : Shape).Idx → EReal) (n : Fin 50000) (j : Fin 128) : EReal :=
  (Ideal.ofBits .f32 0x00000000#32
      + ∑ e : Fin 800000, if (ei (ix2 (1 : Fin 2) e)).toInt = (n.val : Int) then msg deg x ei ea W b e j else 0)
    + lin x W b n j

end Cert.Gcn

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.KernelWords.lean ====
/-
  The kernel program's host lines between its segment boundaries, read at an index.

  Before the first region: the edge list's two rows as the source and target words, the two weight matrices stacked and
  transposed, the two biases laid end to end.  Between the regions: the in-degree as a scatter-add of ones at the target
  words, the padded words / attributes / weights (an entry below the padding is the unpadded array's), and the gathered
  projection rows (row r is the projection row of the node that edge r's source word names).
-/
import proofs.«174591_j22574348108072_1_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import proofs.«174591_j22574348108072_1_alg».proof.Proof.Spec
import proofs.«174591_j22574348108072_1_alg».proof.Proof.LibGatherRows
import proofs.«174591_j22574348108072_1_alg».proof.Proof.LibLayout
import proofs.«174591_j22574348108072_1_alg».proof.Proof.LibConsts

set_option maxRecDepth 16384

noncomputable section

open scoped BigOperators

namespace Cert.Gcn.KernelWords
open Cert.KernelIdeal Cert.KernelIdeal.Gen
open Idealize.ShloMosaic Idealize.ShloMosaic.TcCoe Idealize.SL.Sem Idealize.ShloMosaic.StableHlo Idealize.ShloMosaic.ValueIdx
variable (m : (ℓ : Loc nD τ sig) → Buf (Elt Ideal) ℓ) (ρ : Dev nD → PrngReg) (c : Dev nD)

/-- The source word of edge r as the region after the first stretch finds it: the edge list's row 0. -/
theorem roww (r : Fin 800000) :
    W2 (F := Ideal) m ρ c (Proc.devRef .tc main_v1) (ix1 r) = m ((c.tc : Thread nD τ).loc main_arg1) (ix2 (0 : Fin 2) r) := by
  rw [W2_of_ne m ρ c main_v1 (by decide)]
  after_results_simp
  refine (shapeCast_apply _ shapeCasts_S1x800000_S800000 (ix1 r) (ix2 (0 : Fin 1) r)
    (by rewrite [Shape.rowMajor_val_two, Shape.rowMajor_val_one]; show 0 * 800000 + r.val = r.val; omega)).trans ?_
  exact extractStridedSlice_apply ![0, 0] _ slices_S2x800000_S1x800000_0_0 (ix2 (0 : Fin 1) r) (ix2 (0 : Fin 2) r) (fun a => match a with
    | ⟨0, _⟩ => rfl
    | ⟨1, _⟩ => by show r.val = 0 + r.val; omega)

/-- The target word of edge r: the edge list's row 1. -/
theorem colw (r : Fin 800000) :
    W2 (F := Ideal) m ρ c (Proc.devRef .tc main_v3) (ix1 r) = m ((c.tc : Thread nD τ).loc main_arg1) (ix2 (1 : Fin 2) r) := by
  rw [W2_of_ne m ρ c main_v3 (by decide)]
  after_results_simp
  refine (shapeCast_apply _ shapeCasts_S1x800000_S800000 (ix1 r) (ix2 (0 : Fin 1) r)
    (by rewrite [Shape.rowMajor_val_two, Shape.rowMajor_val_one]; show 0 * 800000 + r.val = r.val; omega)).trans ?_
  exact extractStridedSlice_apply ![1, 0] _ slices_S2x800000_S1x800000_1_0 (ix2 (0 : Fin 1) r) (ix2 (1 : Fin 2) r) (fun a => match a with
    | ⟨0, _⟩ => rfl
    | ⟨1, _⟩ => by show r.val = 0 + r.val; omega)

/-- No stretch before the second region writes the edge attributes. -/
theorem eattr : W2 (F := Ideal) m ρ c (Proc.devRef .tc main_arg2) = m ((c.tc : Thread nD τ).loc main_arg2) := by
  rw [W2_of_ne m ρ c main_arg2 (by decide)]
  after_results_simp

/-- The first region finds the node features as launched. -/
theorem entry_x : V1 (F := Ideal) m ρ c main_arg0 = m ((c.tc : Thread nD τ).loc main_arg0) := by
  show W1 m ρ c (Proc.devRef .tc main_arg0) = _
  after_results_simp

/-- The first region's weight operand: the two weight matrices stacked along the output-channel axis, transposed. -/
theorem entry_wt : V1 (F := Ideal) m ρ c main_v5 = transpose S128x256 [1, 0]
      (concatenate S256x128 0 [⟨S128x128, m ((c.tc : Thread nD τ).loc main_arg3)⟩, ⟨S128x128, m ((c.tc : Thread nD τ).loc main_arg5)⟩] concatenates_S128x128_S128x128_S256x128_d0)
      transposes_S256x128_S128x256_1_0 := by
  show W1 m ρ c (Proc.devRef .tc main_v5) = _
  after_results_simp
  rfl

/-- The first region's bias row at column q: the two biases laid end to end. -/
theorem entry_brow (q : Fin 256) : V1 (F := Ideal) m ρ c main_v7 (ix2 (0 : Fin 1) q) =
      concatenate S256 0 [⟨S128, m ((c.tc : Thread nD τ).loc main_arg4)⟩, ⟨S128, m ((c.tc : Thread nD τ).loc main_arg6)⟩] concatenates_S128_S128_S256_d0 (ix1 q) := by
  show W1 m ρ c (Proc.devRef .tc main_v7) (ix2 (0 : Fin 1) q) = _
  after_results_simp
  refine (shapeCast_apply _ shapeCasts_S256_S1x256 (ix2 (0 : Fin 1) q) (ix1 q)
    (by rewrite [Shape.rowMajor_val_two, Shape.rowMajor_val_one]; show q.val = 0 * 256 + q.val; omega)).trans ?_
  rfl

/-- The target words as one array. -/
theorem colvec_eq : W2 (F := Ideal) m ρ c (Proc.devRef .tc main_v3)
    = shapeCast S800000 (extractStridedSlice S1x800000 ![1, 0] (m ((c.tc : Thread nD τ).loc main_arg1)) slices_S2x800000_S1x800000_1_0) shapeCasts_S1x800000_S800000 := by
  rw [W2_of_ne m ρ c main_v3 (by decide)]
  after_results_simp
  rfl

/-- The in-degree array as the kernel program computes it: ones scatter-added at the target words. -/
def degArr : S50000.Idx → EReal :=
  Host.scatterAdd (F := Ideal) scatter_S50000_S800000x1_S800000_n_0_0_1
    (broadcastInDim S50000 ![] bcast_S_S50000 (constant S_ .f32 0x00000000#32))
    (broadcastInDim S800000x1 ![0] bcast_S800000_S800000x1_0
      (shapeCast S800000 (extractStridedSlice S1x800000 ![1, 0] (m ((c.tc : Thread nD τ).loc main_arg1)) slices_S2x800000_S1x800000_1_0) shapeCasts_S1x800000_S800000))
    (broadcastInDim S800000 ![] bcast_S_S800000 (constant S_ .f32 0x3F800000#32))

/-- The in-degree of node p. -/
def degK (p : Fin 50000) : EReal := degArr m c (ix1 p)

/-- The padded target words below the padding: the target word of that edge. -/
theorem colpad_lt (r : Fin 802816) (hr : r.val < 800000) :
    W13 (F := Ideal) m ρ c (Proc.devRef .tc main_v35) (ix1 r) = m ((c.tc : Thread nD τ).loc main_arg1) (ix2 (1 : Fin 2) ⟨r.val, hr⟩) := by
  after_results_simp
  refine (pad_apply_of_inside ![0] ![2816] ![0] _ _ pads_S800000_S802816_028160 h_S_ (ix1 r) (ix1 (⟨r.val, hr⟩ : Fin 800000))
    (fun a => match a with | ⟨0, _⟩ => by show r.val = 0 + r.val * (0 + 1); omega)).trans ?_
  exact colw m ρ c ⟨r.val, hr⟩

/-- The padded edge attributes below the padding: that edge's attributes. -/
theorem eapad_lt (r : Fin 802816) (hr : r.val < 800000) (j : Fin 128) :
    W13 (F := Ideal) m ρ c (Proc.devRef .tc main_v38) (ix2 r j) = m ((c.tc : Thread nD τ).loc main_arg2) (ix2 (⟨r.val, hr⟩ : Fin 800000) j) := by
  after_results_simp
  refine (pad_apply_of_inside ![0, 0] ![2816, 0] ![0, 0] _ _ pads_S800000x128_S802816x128_028160_000 h_S_ (ix2 r j) (ix2 (⟨r.val, hr⟩ : Fin 800000) j)
    (fun a => match a with
      | ⟨0, _⟩ => by show r.val = 0 + r.val * (0 + 1); omega
      | ⟨1, _⟩ => by show j.val = 0 + j.val * (0 + 1); omega)).trans ?_
  exact congrFun (eattr m ρ c) _

/-- Row r of the gathered projections, below the padding: the projection row of edge r's source node. -/
theorem hrow_lt (r : Fin 802816) (hr : r.val < 800000) (q : Fin 256) :
    W13 (F := Ideal) m ρ c (Proc.devRef .tc main_v45) (ix2 r q)
      = W2 m ρ c (Proc.devRef .tc main_v8) (ix2 (Cert.Gcn.node (m ((c.tc : Thread nD τ).loc main_arg1) (ix2 (0 : Fin 2) ⟨r.val, hr⟩))) q) := by
  after_results_simp
  refine (Cert.LibGatherRows.gather_rows_apply (n := 50000) (d := 256) (e := 802816) (by decide) _ _ _ r q).trans ?_
  refine congrArg (fun w => W2 m ρ c (Proc.devRef .tc main_v8) (ix2 (Cert.LibGatherRows.rowOf 50000 (by decide) w) q)) ?_
  refine (Cert.LibLayout.broadcastInDim_a_a1_apply _ bcast_S802816_S802816x1_0 r (0 : Fin 1)).trans ?_
  show Cert.Gcn.wrap _ = Cert.Gcn.wrap _
  refine congrArg Cert.Gcn.wrap ?_
  refine (pad_apply_of_inside ![0] ![2816] ![0] _ _ pads_S800000_S802816_028160 h_S_ (ix1 r) (ix1 (⟨r.val, hr⟩ : Fin 800000))
    (fun a => match a with | ⟨0, _⟩ => by show r.val = 0 + r.val * (0 + 1); omega)).trans ?_
  exact roww m ρ c ⟨r.val, hr⟩

end Cert.Gcn.KernelWords

end
-- ==== Proof.KernelNorm.lean ====
/-
  The edge weights in the kernel program: the per-node factor, the weight of an edge, and the padded weight column.

  The factor array is a select on deg > 0 between rsqrt(max(deg, 1)) and zero.  The weight of edge e is the product of the
  factors gathered at the nodes its two words name (a negative word wraps, then the word is clamped).  The weights are
  padded with zeros to the padded edge count and viewed as a column: below the padding an entry is that edge's weight, in
  the padding it is zero.
-/
import proofs.«174591_j22574348108072_1_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import proofs.«174591_j22574348108072_1_alg».proof.Proof.Spec
import proofs.«174591_j22574348108072_1_alg».proof.Proof.LibGatherRows
import proofs.«174591_j22574348108072_1_alg».proof.Proof.LibLayout
import proofs.«174591_j22574348108072_1_alg».proof.Proof.LibConsts
import proofs.«174591_j22574348108072_1_alg».proof.Proof.KernelWords

set_option maxRecDepth 16384

noncomputable section

open scoped BigOperators

namespace Cert.Gcn.KernelNorm
open Cert.KernelIdeal Cert.KernelIdeal.Gen Cert.Gcn.KernelWords Cert.LibGatherRows
open Idealize.ShloMosaic Idealize.ShloMosaic.TcCoe Idealize.SL.Sem Idealize.ShloMosaic.StableHlo Idealize.ShloMosaic.ValueIdx
variable (m : (ℓ : Loc nD τ sig) → Buf (Elt Ideal) ℓ) (ρ : Dev nD → PrngReg) (c : Dev nD)

/-- After the degree stretch: the mask deg > 0, the reciprocal square root of max(deg, 1), and the zero word. -/
theorem W3_v14 : W3 (F := Ideal) m ρ c (Proc.devRef .tc main_v14)
    = cmpf .ogt (degArr m c) (broadcastInDim S50000 ![] bcast_S_S50000 (constant (F := Ideal) S_ .f32 0x00000000#32)) := by
  after_results_simp
  rw [colvec_eq m ρ c]
  rfl
theorem W3_v17 : W3 (F := Ideal) m ρ c (Proc.devRef .tc main_v17)
    = Host.rsqrt (maximumf (degArr m c) (broadcastInDim S50000 ![] bcast_S_S50000 (constant (F := Ideal) S_ .f32 0x3F800000#32))) := by
  after_results_simp
  rw [colvec_eq m ρ c]
  rfl
theorem W3_cst3 : W3 (F := Ideal) m ρ c (Proc.devRef .tc main_cst_3) = constant (F := Ideal) S_ .f32 0x00000000#32 := by
  after_results_simp

/-- The select stretch: the factor array is the select of the three. -/
theorem W4_v18 : W4 (F := Ideal) m ρ c (Proc.devRef .tc main_v18)
    = select (W3 m ρ c (Proc.devRef .tc main_v14)) (W3 m ρ c (Proc.devRef .tc main_v17))
        (broadcastInDim S50000 ![] bcast_S_S50000 (W3 m ρ c (Proc.devRef .tc main_cst_3))) := by
  show StableHlo.after hostOps1_1 (W3 m ρ c) (Proc.devRef .tc main_v18) = _
  generalize W3 (F := Ideal) m ρ c = V3
  after_results_simp
  rfl

/-- A comparison against a broadcast word, a reciprocal square root of a maximum with a broadcast word, and a broadcast
    word, each read at an index. -/
theorem cmp_word (d : S50000.Idx → EReal) (w : BitVec 32) (i : S50000.Idx) :
    cmpf .ogt d (broadcastInDim S50000 ![] bcast_S_S50000 (constant (F := Ideal) S_ .f32 w)) i
      = Ideal.cmp .ogt (d i) (Ideal.ofBits .f32 w) := rfl
theorem rsqrt_max_word (d : S50000.Idx → EReal) (w : BitVec 32) (i : S50000.Idx) :
    Host.rsqrt (maximumf d (broadcastInDim S50000 ![] bcast_S_S50000 (constant (F := Ideal) S_ .f32 w))) i
      = Ideal.rsqrt (max (d i) (Ideal.ofBits .f32 w)) := rfl
theorem word_everywhere (w : BitVec 32) (i : S50000.Idx) :
    broadcastInDim S50000 ![] bcast_S_S50000 (constant (F := Ideal) S_ .f32 w) i = Ideal.ofBits .f32 w := rfl

/-- The per-node factor array at node p: the reciprocal square root of max(deg, 1) where deg > 0, zero elsewhere. -/
theorem disArr (p : Fin 50000) :
    W4 (F := Ideal) m ρ c (Proc.devRef .tc main_v18) (ix1 p) = Cert.Gcn.dis (degK m c) p := by
  have e1 : W3 (F := Ideal) m ρ c (Proc.devRef .tc main_v14) (ix1 p)
      = Ideal.cmp .ogt (degK m c p) (Ideal.ofBits .f32 0x00000000#32) :=
    (congrFun (W3_v14 m ρ c) (ix1 p)).trans (cmp_word (degArr m c) _ (ix1 p))
  have e2 : W3 (F := Ideal) m ρ c (Proc.devRef .tc main_v17) (ix1 p)
      = Ideal.rsqrt (max (degK m c p) (Ideal.ofBits .f32 0x3F800000#32)) :=
    (congrFun (W3_v17 m ρ c) (ix1 p)).trans (rsqrt_max_word (degArr m c) _ (ix1 p))
  have e3 : broadcastInDim S50000 ![] bcast_S_S50000 (W3 (F := Ideal) m ρ c (Proc.devRef .tc main_cst_3)) (ix1 p)
      = Ideal.ofBits .f32 0x00000000#32 :=
    (congrArg (fun z => broadcastInDim S50000 ![] bcast_S_S50000 z (ix1 p)) (W3_cst3 m ρ c)).trans (word_everywhere _ (ix1 p))
  refine (congrFun (W4_v18 m ρ c) (ix1 p)).trans ?_
  refine (select_apply _ _ _ _).trans ?_
  unfold Cert.Gcn.dis
  exact congr (congr (congrArg (Scalar.select (α := EReal)) e1) e2) e3

/-- The two host stretches after the first region leave the source and target words as they were. -/
theorem W4_v1 : W4 (F := Ideal) m ρ c (Proc.devRef .tc main_v1) = W2 m ρ c (Proc.devRef .tc main_v1) := by
  after_results_simp
theorem W4_v3 : W4 (F := Ideal) m ρ c (Proc.devRef .tc main_v3) = W2 m ρ c (Proc.devRef .tc main_v3) := by
  after_results_simp

/-- The weight of edge e: the factor of the node its source word names times the factor of the node its target word
    names. -/
theorem normK_apply (e : Fin 800000) :
    W5 (F := Ideal) m ρ c (Proc.devRef .tc main_v33) (ix1 e) = Cert.Gcn.nrm (degK m c) (m ((c.tc : Thread nD τ).loc main_arg1)) e := by
  show StableHlo.after hostOps1_2 (W4 m ρ c) (Proc.devRef .tc main_v33) (ix1 e) = _
  generalize hV : W4 (F := Ideal) m ρ c = V4
  after_results_simp
  subst hV
  unfold Cert.Gcn.nrm
  refine (mulf_apply _ _ _).trans ?_
  refine congrArg₂ (fun a b : EReal => a * b) ?_ ?_
  · refine (gather_pick_apply (n := 50000) (e := 800000) (by decide) _ _ _ e).trans ?_
    refine (congrArg (fun w => W4 m ρ c (Proc.devRef .tc main_v18) (ix1 (rowOf 50000 (by decide) w))) ?_).trans (disArr m ρ c _)
    refine (Cert.LibLayout.broadcastInDim_a_a1_apply _ bcast_S800000_S800000x1_0 e (0 : Fin 1)).trans ?_
    show Cert.Gcn.wrap _ = Cert.Gcn.wrap _
    refine congrArg Cert.Gcn.wrap ?_
    exact (congrFun (W4_v1 m ρ c) (ix1 e)).trans (roww m ρ c e)
  · refine (gather_pick_apply (n := 50000) (e := 800000) (by decide) _ _ _ e).trans ?_
    refine (congrArg (fun w => W4 m ρ c (Proc.devRef .tc main_v18) (ix1 (rowOf 50000 (by decide) w))) ?_).trans (disArr m ρ c _)
    refine (Cert.LibLayout.broadcastInDim_a_a1_apply _ bcast_S800000_S800000x1_0 e (0 : Fin 1)).trans ?_
    show Cert.Gcn.wrap _ = Cert.Gcn.wrap _
    refine congrArg Cert.Gcn.wrap ?_
    exact (congrFun (W4_v3 m ρ c) (ix1 e)).trans (colw m ρ c e)

end Cert.Gcn.KernelNorm

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Region0.lean ====
/-
  The projection kernel, read as one function of its arrays.

  The kernel runs over ten blocks of 5000 rows.  At each block it multiplies the block's 5000 x 128 feature rows by the
  128 x 256 weight matrix into a zero accumulator and adds the 1 x 256 bias row to every row of the product.  Over the
  extended reals the change of float format before the product is the identity, so entry (p, q) of what a block
  computes is (sum over k of x(p,k) * w(k,q)) + b(0,q).  The feature block at point t is rows 5000 t .. 5000 t + 4999
  of the feature array, the weights and the bias are read whole at every point, and the ten output blocks tile the
  50000 x 256 output array (row r lies in block r / 5000).  So after the kernel the output array holds, at (n, j),
  (sum over k of x(n,k) * w(k,j)) + b(0,j) of the arrays the kernel found.
-/
import proofs.«174591_j22574348108072_1_alg».proof.Proof.Gen.KernelIdeal.Frame
import proofs.«174591_j22574348108072_1_alg».proof.Proof.LibDense
import Idealize.ShloMosaic.Lib.Pipeline.Value
import Idealize.ShloMosaic.Lib.ValueIdx
import Idealize.ShloMosaic.Lib.ValueLayout

noncomputable section

open scoped BigOperators

namespace Cert.Gcn.Region0

open Cert.KernelIdeal Cert.KernelIdeal.Gen Idealize.ShloMosaic Idealize.ShloMosaic.TcCoe Idealize.ShloMosaic.ValueIdx
open Idealize.ShloMosaic.Pipeline (Dat)

/-! ## The matrix product's operand indices -/

/-- The left operand is read at the output's row. -/
theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl

/-- The left operand's column is the contraction coordinate. -/
theorem lhs_inner (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q

/-- The right operand's row is the contraction coordinate. -/
theorem rhs_inner (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q

/-- The right operand is read at the output's column. -/
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-! ## The body's arithmetic at an entry -/

/-- Entry `(p, q)` of what the body stores: row `p` of the feature block times column `q` of the weights, summed into
    zero, plus the bias row at `q`. -/
theorem payload_apply (x0 : Vec Ideal S5000x128 .f32) (x1 : Vec Ideal S128x256 .f32) (x2 : Vec Ideal S1x256 .f32)
    (p : Fin 5000) (q : Fin 256) :
    k0_pay1 x0 x1 x2 (ix2 p q) = (∑ k : Fin 128, x0 (ix2 p k) * x1 (ix2 k q)) + x2 (ix2 0 q) := by
  unfold k0_pay1
  rw [addf_apply, shapeCast_self, shapeCast_self, broadcastTo_1b_ab_apply]
  refine congrArg (· + x2 (ix2 0 q)) ?_
  refine (Cert.LibDense.matmul_zero_apply dot_S5000x128_S128x256_S5000x256_1_0_0_1_n_n rfl rfl lhs_row lhs_inner rhs_inner rhs_col none _ _ p q).trans ?_
  rfl

/-- The same, at an index of the block given by its two coordinates. -/
theorem payload_at (x0 : Vec Ideal S5000x128 .f32) (x1 : Vec Ideal S128x256 .f32) (x2 : Vec Ideal S1x256 .f32)
    (y : S5000x256.Idx) :
    k0_pay1 x0 x1 x2 y = (∑ k : Fin 128, x0 (ix2 (y 0) k) * x1 (ix2 k (y 1))) + x2 (ix2 0 (y 1)) := by
  obtain ⟨p, q, rfl⟩ : ∃ (p : Fin 5000) (q : Fin 256), y = ix2 p q := ⟨y 0, y 1, eq_ix2 y⟩
  exact payload_apply x0 x1 x2 p q

/-! ## The projection as one function of the three arrays -/

/-- Row `n` of the features times column `j` of the weights, plus the bias at `j`. -/
def proj (x : S50000x128.Idx → EReal) (w : S128x256.Idx → EReal) (b : S1x256.Idx → EReal)
    (n : Fin 50000) (j : Fin 256) : EReal :=
  (∑ k : Fin 128, x (ix2 n k) * w (ix2 k j)) + b (ix2 (0 : Fin 1) j)

/-- The whole `[50000, 256]` array of those entries. -/
abbrev projArr (x : S50000x128.Idx → EReal) (w : S128x256.Idx → EReal) (b : S1x256.Idx → EReal) :
    S50000x256.Idx → EReal := fun i => proj x w b (i 0) (i 1)

/-! ## From the row blocks to the array -/

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The block indices over the grid, decided: the feature rows move with the output rows, block `t` at point `t`;
    the weights and the bias stay at their one block. -/
theorem block_indices : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t`, at a block index, is the feature array at the row the output block has there. -/
theorem features_block (c : Dev nD) (t : Fin cfg0.N) (y : S5000x128.Idx) (i : S50000x128.Idx)
    (h0 : (i 0).val = win0_3.index t (0 : Fin 2) * 5000 + (y 0).val) (h1 : (i 1).val = (y 1).val) :
    (iblk0 V c 0 t : Vec Ideal S5000x128 .f32) y = (V c main_arg0 : S50000x128.Idx → Elt Ideal .f32) i := by
  obtain ⟨e0, e1, -⟩ := block_indices t
  unfold iblk0
  rw [View.read_apply]
  show (V c main_arg0 : S50000x128.Idx → Elt Ideal .f32) _ = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight block at any point is the whole weight array. -/
theorem weights_block (c : Dev nD) (t : Fin cfg0.N) (y : S128x256.Idx) :
    (iblk0 V c 1 t : Vec Ideal S128x256 .f32) y = (V c main_v5 : S128x256.Idx → Elt Ideal .f32) y := by
  obtain ⟨-, -, e2, e3, -⟩ := block_indices t
  unfold iblk0
  rw [View.read_apply]
  show (V c main_v5 : S128x256.Idx → Elt Ideal .f32) _ = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The bias block at any point is the whole bias row. -/
theorem bias_block (c : Dev nD) (t : Fin cfg0.N) (y : S1x256.Idx) :
    (iblk0 V c 2 t : Vec Ideal S1x256 .f32) y = (V c main_v7 : S1x256.Idx → Elt Ideal .f32) y := by
  obtain ⟨-, -, -, -, e4, e5, -⟩ := block_indices t
  unfold iblk0
  rw [View.read_apply]
  show (V c main_v7 : S1x256.Idx → Elt Ideal .f32) _ = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What point `t` writes back is block `t` of the projection of the arrays as the region finds them. -/
theorem flushed_eq (c : Dev nD) (t : Fin cfg0.N) :
    (dat0 V c).flushed 3 t
      = ((cfg0.win 3).blk t).view.read (Elt Ideal) (projArr (V c main_arg0) (V c main_v5) (V c main_v7)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x256) zero_offsets,
    View.ld_unit_zero (S := S1x256) zero_offsets]
  funext y
  show k0_pay1 (iblk0 V c 0 t) (iblk0 V c 1 t) (iblk0 V c 2 t) y
    = proj (V c main_arg0) (V c main_v5) (V c main_v7) ((((cfg0.win 3).blk t).view.emb y) 0) ((((cfg0.win 3).blk t).view.emb y) 1)
  refine (payload_at _ _ _ y).trans ?_
  unfold proj
  refine congrArg₂ (· + ·) (Finset.sum_congr rfl fun k _ => congrArg₂ (· * ·) ?_ ?_) ?_
  · refine features_block V c t _ _ ?_ ?_
    · show ((((cfg0.win 3).blk t).view.emb y) 0).val = win0_3.index t (0 : Fin 2) * 5000 + (y 0).val
      show win0_3.index t (0 : Fin 2) * 5000 + 1 * (y 0).val = _
      omega
    · rfl
  · refine (weights_block V c t _).trans (congrArg _ (funext fun a => Fin.ext ?_))
    obtain ⟨-, -, -, -, -, -, -, e7⟩ := block_indices t
    match a with
    | ⟨0, _⟩ => rfl
    | ⟨1, _⟩ => show (y 1).val = win0_3.index t (1 : Fin 2) * 256 + 1 * (y 1).val; omega
  · refine (bias_block V c t _).trans (congrArg _ (funext fun a => Fin.ext ?_))
    obtain ⟨-, -, -, -, -, -, -, e7⟩ := block_indices t
    match a with
    | ⟨0, _⟩ => rfl
    | ⟨1, _⟩ => show (y 1).val = win0_3.index t (1 : Fin 2) * 256 + 1 * (y 1).val; omega

/-- An index of the array is in point `t`'s block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v8).slice (win0_3.rect t)).set ↔ _
  rw [View.set_slice_whole, Rect.mem_set_unit]
  exact Iff.rfl

/-- The ten row blocks fill the array: row `r` is in the block of point `r / 5000`. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 5000 < cfg0.N := lt_of_lt_of_eq (by omega) N_0.symm
  obtain ⟨-, -, -, -, -, -, e6, e7⟩ := block_indices ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    omega

/-- After the region the output array holds the projection of the arrays the region found. -/
theorem proj_array (c : Dev nD) :
    (dat0 V c).arrAt 3 cfg0.N = projArr (V c main_arg0) (V c main_v5) (V c main_v7) :=
  (dat0 V c).arrAt_eq_of_cover 3 (projArr (V c main_arg0) (V c main_v5) (V c main_v7))
    (fun t _ => flushed_eq V c t) cover

/-- Entry `(n, j)` of the output array after the region. -/
theorem proj_final (c : Dev nD) (n : Fin 50000) (j : Fin 256) :
    (dat0 (F := Ideal) V c).arrAt 3 cfg0.N (ix2 n j)
      = proj (V c main_arg0) (V c main_v5) (V c main_v7) n j :=
  congrFun (proj_array V c) (ix2 n j)

end Cert.Gcn.Region0

end
-- ==== Proof.KernelProj.lean ====
/-
  The kernel program's projection array is the specification's projection, one weight set per half of its columns.

  The projection kernel multiplies the node features by a 128 x 256 matrix and adds a 1 x 256 row.  The host lines
  before it build that matrix as the two 128 x 128 weight matrices stacked along their output-channel axis and then
  transposed, and that row as the two biases laid end to end.  So column j < 128 of the matrix is row j of the first
  weight matrix, column j + 128 is row j of the second, and likewise for the row of biases: the array the kernel leaves
  holds at (p, j) the first set's projection (sum over k of x(p,k) * W(j,k)) + b(j), and at (p, j + 128) the second's.
-/
import proofs.«174591_j22574348108072_1_alg».proof.Proof.Region0
import proofs.«174591_j22574348108072_1_alg».proof.Proof.KernelWords
import proofs.«174591_j22574348108072_1_alg».proof.Proof.Spec
import Idealize.ShloMosaic.Lib.Pipeline.Value
import Idealize.ShloMosaic.Lib.ValueIdx
import Idealize.ShloMosaic.Lib.ValueLayout

noncomputable section

open scoped BigOperators

namespace Cert.Gcn.KernelProj

open Cert.KernelIdeal Cert.KernelIdeal.Gen
open Idealize.ShloMosaic Idealize.ShloMosaic.TcCoe Idealize.SL.Sem Idealize.ShloMosaic.ValueIdx

/-! ## The stacked weights and the joined biases, read at an index -/

/-- Two weight matrices stacked along their rows and transposed: column `j` of the first half is row `j` of the first. -/
theorem stacked_transposed_left (A B : S128x128.Idx → EReal) (k j : Fin 128) (hq : j.val < 256) :
    transpose S128x256 [1, 0]
        (concatenate S256x128 0 [⟨S128x128, A⟩, ⟨S128x128, B⟩] concatenates_S128x128_S128x128_S256x128_d0)
        transposes_S256x128_S128x256_1_0 (ix2 k (⟨j.val, hq⟩ : Fin 256)) = A (ix2 j k) := by
  refine (transpose_ix2_apply _ transposes_S256x128_S128x256_1_0 k (⟨j.val, hq⟩ : Fin 256)).trans ?_
  exact concatenate_pair_apply_left 0 A B concatenates_S128x128_S128x128_S256x128_d0
    (ix2 (⟨j.val, hq⟩ : Fin 256) k) rfl (ix2 j k) (fun b => match b with
      | ⟨0, _⟩ => rfl
      | ⟨1, _⟩ => rfl)

/-- … and column `j + 128`, in the second half, is row `j` of the second. -/
theorem stacked_transposed_right (A B : S128x128.Idx → EReal) (k j : Fin 128) (hq : j.val + 128 < 256) :
    transpose S128x256 [1, 0]
        (concatenate S256x128 0 [⟨S128x128, A⟩, ⟨S128x128, B⟩] concatenates_S128x128_S128x128_S256x128_d0)
        transposes_S256x128_S128x256_1_0 (ix2 k (⟨j.val + 128, hq⟩ : Fin 256)) = B (ix2 j k) := by
  refine (transpose_ix2_apply _ transposes_S256x128_S128x256_1_0 k (⟨j.val + 128, hq⟩ : Fin 256)).trans ?_
  exact concatenate_pair_apply_right 0 A B concatenates_S128x128_S128x128_S256x128_d0
    (ix2 (⟨j.val + 128, hq⟩ : Fin 256) k) rfl rfl (ix2 j k) (fun b hb => match b, hb with
      | ⟨0, _⟩, hb => absurd rfl hb
      | ⟨1, _⟩, _ => rfl) rfl

/-- Two biases laid end to end: entry `j` of the first half is the first bias at `j`. -/
theorem joined_left (a b : S128.Idx → EReal) (j : Fin 128) (hq : j.val < 256) :
    concatenate S256 0 [⟨S128, a⟩, ⟨S128, b⟩] concatenates_S128_S128_S256_d0 (ix1 (⟨j.val, hq⟩ : Fin 256)) = a (ix1 j) :=
  concatenate_pair_apply_left 0 a b concatenates_S128_S128_S256_d0 (ix1 (⟨j.val, hq⟩ : Fin 256)) rfl (ix1 j)
    (fun b => match b with | ⟨0, _⟩ => rfl)

/-- … and entry `j + 128` is the second bias at `j`. -/
theorem joined_right (a b : S128.Idx → EReal) (j : Fin 128) (hq : j.val + 128 < 256) :
    concatenate S256 0 [⟨S128, a⟩, ⟨S128, b⟩] concatenates_S128_S128_S256_d0 (ix1 (⟨j.val + 128, hq⟩ : Fin 256)) = b (ix1 j) :=
  concatenate_pair_apply_right 0 a b concatenates_S128_S128_S256_d0 (ix1 (⟨j.val + 128, hq⟩ : Fin 256)) rfl rfl (ix1 j)
    (fun b hb => match b, hb with | ⟨0, _⟩, hb => absurd rfl hb) rfl

/-! ## The projection array after the first region -/

variable (m : (ℓ : Loc nD τ sig) → Buf (Elt Ideal) ℓ) (ρ : Dev nD → PrngReg) (c : Dev nD)

/-- The first 128 columns hold the projection by the first weight set. -/
theorem hcat_mean (p : Fin 50000) (j : Fin 128) :
    W2 (F := Ideal) m ρ c (Proc.devRef .tc main_v8) (ix2 p (⟨j.val, by omega⟩ : Fin 256))
      = Cert.Gcn.lin (m ((c.tc : Thread nD τ).loc main_arg0)) (m ((c.tc : Thread nD τ).loc main_arg3))
          (m ((c.tc : Thread nD τ).loc main_arg4)) p j := by
  refine (congrFun (W2_arr m ρ c 3) _).trans ?_
  refine (Cert.Gcn.Region0.proj_final (V1 m ρ) c p _).trans ?_
  unfold Cert.Gcn.Region0.proj Cert.Gcn.lin
  refine congrArg₂ (· + ·) (Finset.sum_congr rfl fun k _ => congrArg₂ (· * ·) ?_ ?_) ?_
  · exact congrFun (Cert.Gcn.KernelWords.entry_x m ρ c) _
  · exact (congrFun (Cert.Gcn.KernelWords.entry_wt m ρ c) _).trans (stacked_transposed_left _ _ k j _)
  · exact (Cert.Gcn.KernelWords.entry_brow m ρ c _).trans (joined_left _ _ j _)

/-- The last 128 columns hold the projection by the second weight set. -/
theorem hcat_std (p : Fin 50000) (j : Fin 128) :
    W2 (F := Ideal) m ρ c (Proc.devRef .tc main_v8) (ix2 p (⟨j.val + 128, by omega⟩ : Fin 256))
      = Cert.Gcn.lin (m ((c.tc : Thread nD τ).loc main_arg0)) (m ((c.tc : Thread nD τ).loc main_arg5))
          (m ((c.tc : Thread nD τ).loc main_arg6)) p j := by
  refine (congrFun (W2_arr m ρ c 3) _).trans ?_
  refine (Cert.Gcn.Region0.proj_final (V1 m ρ) c p _).trans ?_
  unfold Cert.Gcn.Region0.proj Cert.Gcn.lin
  refine congrArg₂ (· + ·) (Finset.sum_congr rfl fun k _ => congrArg₂ (· * ·) ?_ ?_) ?_
  · exact congrFun (Cert.Gcn.KernelWords.entry_x m ρ c) _
  · exact (congrFun (Cert.Gcn.KernelWords.entry_wt m ρ c) _).trans (stacked_transposed_right _ _ k j _)
  · exact (Cert.Gcn.KernelWords.entry_brow m ρ c _).trans (joined_right _ _ j _)

end Cert.Gcn.KernelProj

end
-- ==== Proof.Region1.lean ====
/-
  The second pallas_call of the kernel program (the message kernel), read as one function.

  Over a grid of 196 row blocks of 4096 edges, the body loads a block `x0` of the gathered rows
  ([4096, 256]), a block `x1` of the padded edge attributes ([4096, 128]) and a block `x2` of the
  padded edge norms ([4096, 1]), and stores, into columns 0..127 and 128..255 of its output block,
  `x2 · (x0[:, 0:128] + x1)` and `x2 · (x0[:, 128:256] + x1)`.  So at row `p` and column `q` the
  output block holds `x2 (p, 0) · (x0 (p, q) + x1 (p, q mod 128))`, and, the blocks tiling the
  edge axis, the output array holds at edge `e` and column `q`

      norm (e, 0) · (rows (e, q) + attr (e, q mod 128)).
-/
import proofs.«174591_j22574348108072_1_alg».proof.Proof.Gen.KernelIdeal.Frame
import proofs.«174591_j22574348108072_1_alg».proof.Proof.LibLayout
import Idealize.ShloMosaic.Lib.Pipeline.Value
import Idealize.ShloMosaic.Lib.ValueIdx
import Idealize.ShloMosaic.Lib.Tactic

set_option maxRecDepth 16384

noncomputable section

namespace Cert.Gcn.Region1

open Cert.KernelIdeal Cert.KernelIdeal.Gen Idealize.ShloMosaic Idealize.ShloMosaic.ValueIdx
open Idealize.ShloMosaic.TcCoe
open Idealize.ShloMosaic.Pipeline (Dat)

/-! ## The body's two payloads at an index -/

/-- The column index `k` of a half, as a column of the full 256-column block: the low half. -/
abbrev colLo (k : Fin 128) : Fin 256 := ⟨k.val, by omega⟩
/-- The column index `k` of a half, as a column of the full 256-column block: the high half. -/
abbrev colHi (k : Fin 128) : Fin 256 := ⟨k.val + 128, by omega⟩
/-- A column of the full block, folded into a half. -/
abbrev colMod (q : Fin 256) : Fin 128 := ⟨q.val % 128, Nat.mod_lt _ (by decide)⟩

/-- The payload stored into columns 0..127: at `(p, k)`, the norm at row `p` times the sum of the
    gathered row's entry `k` and the edge attribute's entry `k`. -/
theorem pay_lo (x0 : Vec Ideal S4096x256 .f32) (x1 : Vec Ideal S4096x128 .f32) (x2 : Vec Ideal S4096x1 .f32)
    (p : Fin 4096) (k : Fin 128) :
    k1_pay4 x0 x1 x2 (ix2 p k) = x2 (ix2 p (0 : Fin 1)) * (x0 (ix2 p (colLo k)) + x1 (ix2 p k)) := by
  unfold k1_pay4 k1_pay1 k1_pay2 k1_pay3
  simp only [shapeCast_self]
  rw [mulf_apply, addf_apply, Cert.LibLayout.broadcastTo_a1_ab_apply]
  congr 2
  refine extractStridedSlice_apply _ _ _ _ _ fun a => ?_
  match a with
  | ⟨0, _⟩ => show p.val = 0 + p.val; omega
  | ⟨1, _⟩ => show k.val = 0 + k.val; omega

/-- The payload stored into columns 128..255: at `(p, k)`, the norm at row `p` times the sum of the
    gathered row's entry `k + 128` and the edge attribute's entry `k`. -/
theorem pay_hi (x0 : Vec Ideal S4096x256 .f32) (x1 : Vec Ideal S4096x128 .f32) (x2 : Vec Ideal S4096x1 .f32)
    (p : Fin 4096) (k : Fin 128) :
    k1_pay5 x0 x1 x2 (ix2 p k) = x2 (ix2 p (0 : Fin 1)) * (x0 (ix2 p (colHi k)) + x1 (ix2 p k)) := by
  unfold k1_pay5 k1_pay1 k1_pay2 k1_pay3
  simp only [shapeCast_self]
  rw [mulf_apply, addf_apply, Cert.LibLayout.broadcastTo_a1_ab_apply]
  congr 2
  refine extractStridedSlice_apply _ _ _ _ _ fun a => ?_
  match a with
  | ⟨0, _⟩ => show p.val = 0 + p.val; omega
  | ⟨1, _⟩ => show k.val + 128 = 128 + k.val; omega

/-! ## The output block as one function of the three input blocks -/

theorem hz : (![0, 0] : Fin 2 → Nat) = fun _ => 0 := funext fun a => by fin_cases a <;> rfl

/-- The message at row `p`, column `q` of a block: the norm at row `p` times the sum of the gathered row's
    entry `q` and the edge attribute's entry `q mod 128`. -/
def msgAt (x0 : Vec Ideal S4096x256 .f32) (x1 : Vec Ideal S4096x128 .f32) (x2 : Vec Ideal S4096x1 .f32)
    (p : Fin 4096) (q : Fin 256) : EReal :=
  x2 (ix2 p (0 : Fin 1)) * (x0 (ix2 p q) + x1 (ix2 p (colMod q)))

/-- The block of messages: `msgAt` at each index's two coordinates. -/
def blockMsg (x0 : Vec Ideal S4096x256 .f32) (x1 : Vec Ideal S4096x128 .f32) (x2 : Vec Ideal S4096x1 .f32) :
    Vec Ideal S4096x256 .f32 :=
  fun y => msgAt x0 x1 x2 (y 0) (y 1)

theorem blockMsg_apply (x0 : Vec Ideal S4096x256 .f32) (x1 : Vec Ideal S4096x128 .f32) (x2 : Vec Ideal S4096x1 .f32)
    (p : Fin 4096) (q : Fin 256) : blockMsg x0 x1 x2 (ix2 p q) = msgAt x0 x1 x2 p q := rfl

/-- The store into columns 128..255 writes the block of messages there. -/
theorem piece_hi (x0 : Vec Ideal S4096x256 .f32) (x1 : Vec Ideal S4096x128 .f32) (x2 : Vec Ideal S4096x1 .f32)
    (x : S4096x128.Idx) :
    k1_pay5 (View.ld x0 r1_0) (View.ld x1 r1_1) (View.ld x2 r1_2) x = blockMsg x0 x1 x2 (r1_4.emb x) := by
  obtain ⟨p, k, rfl⟩ : ∃ (p : Fin 4096) (k : Fin 128), x = ix2 p k := ⟨x 0, x 1, eq_ix2 x⟩
  have e : r1_4.emb (ix2 p k) = ix2 p (colHi k) := funext fun a => Fin.ext (by
    match a with
    | ⟨0, _⟩ => show 0 + 1 * p.val = p.val; omega
    | ⟨1, _⟩ => show 128 + 1 * k.val = k.val + 128; omega)
  rw [View.ld_unit_zero (S := S4096x256) hz, View.ld_unit_zero (S := S4096x128) hz,
    View.ld_unit_zero (S := S4096x1) hz, pay_hi, e, blockMsg_apply]
  unfold msgAt
  have hk : colMod (colHi k) = k := Fin.ext (by show (k.val + 128) % 128 = k.val; have := k.isLt; omega)
  rw [hk]

/-- The store into columns 0..127 writes the block of messages there. -/
theorem piece_lo (x0 : Vec Ideal S4096x256 .f32) (x1 : Vec Ideal S4096x128 .f32) (x2 : Vec Ideal S4096x1 .f32)
    (x : S4096x128.Idx) :
    k1_pay4 (View.ld x0 r1_0) (View.ld x1 r1_1) (View.ld x2 r1_2) x = blockMsg x0 x1 x2 (r1_3.emb x) := by
  obtain ⟨p, k, rfl⟩ : ∃ (p : Fin 4096) (k : Fin 128), x = ix2 p k := ⟨x 0, x 1, eq_ix2 x⟩
  have e : r1_3.emb (ix2 p k) = ix2 p (colLo k) := funext fun a => Fin.ext (by
    match a with
    | ⟨0, _⟩ => show 0 + 1 * p.val = p.val; omega
    | ⟨1, _⟩ => show 0 + 1 * k.val = k.val; omega)
  rw [View.ld_unit_zero (S := S4096x256) hz, View.ld_unit_zero (S := S4096x128) hz,
    View.ld_unit_zero (S := S4096x1) hz, pay_lo, e, blockMsg_apply]
  unfold msgAt
  have hk : colMod (colLo k) = k := Fin.ext (by show k.val % 128 = k.val; have := k.isLt; omega)
  rw [hk]

/-- What the body leaves in its output block is the block of messages of its three input blocks: the two
    stores are the two column halves of that one function, and they tile the block. -/
theorem out_block (x0 : Vec Ideal S4096x256 .f32) (x1 : Vec Ideal S4096x128 .f32) (x2 : Vec Ideal S4096x1 .f32) :
    out1_3 x0 x1 x2 = blockMsg x0 x1 x2 := by
  funext y
  unfold out1_3
  refine View.canon_apply_of_pieces (blockMsg x0 x1 x2) _ ?_ y (cover1_3 _ _ y)
  intro pc hpc x
  rcases List.mem_cons.mp hpc with rfl | hpc
  · exact piece_hi x0 x1 x2 x
  rcases List.mem_cons.mp hpc with rfl | hpc
  · exact piece_lo x0 x1 x2 x
  nomatch hpc

/-! ## From blocks to the array -/

/-- The printed index maps over the grid: at point `t` every window's block index is `(t, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The message of edge `e` at column `q`, from the three arrays the region reads: the gathered rows `h`,
    the padded edge attributes `ea` and the padded norms `nr`. -/
def edgeMsg (h : S802816x256.Idx → EReal) (ea : S802816x128.Idx → EReal) (nr : S802816x1.Idx → EReal)
    (e : Fin 802816) (q : Fin 256) : EReal :=
  nr (ix2 e (0 : Fin 1)) * (h (ix2 e q) + ea (ix2 e (⟨q.val % 128, Nat.mod_lt _ (by decide)⟩ : Fin 128)))

/-- The array of messages: `edgeMsg` at each index's two coordinates. -/
def arrMsg (h : S802816x256.Idx → EReal) (ea : S802816x128.Idx → EReal) (nr : S802816x1.Idx → EReal) :
    S802816x256.Idx → EReal :=
  fun i => edgeMsg h ea nr (i 0) (i 1)

section Array

variable (V : (c : Dev nD) → (b : Ref sig .tc) → Buf (Elt Ideal) ((c : Thread nD τ).loc b))

/-- The gathered rows' block at point `t` holds, at `(p, q)`, the array's entry at row `4096 t + p`, column `q`. -/
theorem rows_block (c : Dev nD) (t : Fin cfg1.N) (p : Fin 4096) (q : Fin 256) (e : Fin 802816)
    (he : e.val = t.val * 4096 + p.val) :
    (iblk1 (F := Ideal) V c 0 t : Vec Ideal S4096x256 .f32) (ix2 p q)
      = (V c main_v45 : S802816x256.Idx → EReal) (ix2 e q) := by
  obtain ⟨h0, h1, -⟩ := idx_facts t
  unfold iblk1
  rw [View.read_apply]
  show V c main_v45 _ = V c main_v45 _
  congr 1
  funext a
  apply Fin.ext
  match a with
  | ⟨0, _⟩ => show win1_0.index t (0 : Fin 2) * 4096 + 1 * p.val = e.val; rw [h0, he]; omega
  | ⟨1, _⟩ => show win1_0.index t (1 : Fin 2) * 256 + 1 * q.val = q.val; rw [h1]; omega

/-- The edge attributes' block at point `t` holds, at `(p, k)`, the array's entry at row `4096 t + p`, column `k`. -/
theorem attr_block (c : Dev nD) (t : Fin cfg1.N) (p : Fin 4096) (k : Fin 128) (e : Fin 802816)
    (he : e.val = t.val * 4096 + p.val) :
    (iblk1 (F := Ideal) V c 1 t : Vec Ideal S4096x128 .f32) (ix2 p k)
      = (V c main_v38 : S802816x128.Idx → EReal) (ix2 e k) := by
  obtain ⟨-, -, h0, h1, -⟩ := idx_facts t
  unfold iblk1
  rw [View.read_apply]
  show V c main_v38 _ = V c main_v38 _
  congr 1
  funext a
  apply Fin.ext
  match a with
  | ⟨0, _⟩ => show win1_1.index t (0 : Fin 2) * 4096 + 1 * p.val = e.val; rw [h0, he]; omega
  | ⟨1, _⟩ => show win1_1.index t (1 : Fin 2) * 128 + 1 * k.val = k.val; rw [h1]; omega

/-- The norms' block at point `t` holds, at `(p, 0)`, the array's entry at row `4096 t + p`. -/
theorem norm_block (c : Dev nD) (t : Fin cfg1.N) (p : Fin 4096) (e : Fin 802816)
    (he : e.val = t.val * 4096 + p.val) :
    (iblk1 (F := Ideal) V c 2 t : Vec Ideal S4096x1 .f32) (ix2 p (0 : Fin 1))
      = (V c main_v37 : S802816x1.Idx → EReal) (ix2 e (0 : Fin 1)) := by
  obtain ⟨-, -, -, -, h0, h1, -⟩ := idx_facts t
  unfold iblk1
  rw [View.read_apply]
  show V c main_v37 _ = V c main_v37 _
  congr 1
  funext a
  apply Fin.ext
  match a with
  | ⟨0, _⟩ => show win1_2.index t (0 : Fin 2) * 4096 + 1 * p.val = e.val; rw [h0, he]; omega
  | ⟨1, _⟩ => show win1_2.index t (1 : Fin 2) * 1 + 1 * 0 = 0; rw [h1]

/-- What point `t` writes back is block `t` of the array of messages of the arrays as the region finds them. -/
theorem flushed_eq (c : Dev nD) (t : Fin cfg1.N) :
    (dat1 (F := Ideal) V c).flushed 3 t
      = ((cfg1.win 3).blk t).view.read (Elt Ideal) (arrMsg (V c main_v45) (V c main_v38) (V c main_v37)) := by
  show (cfg1.win 3).cut (grid1.coords t) ((dat1 V c).after 3 t) = _
  rw [after1_3]
  obtain ⟨-, -, -, -, -, -, h0, h1⟩ := idx_facts t
  have ht : t.val < 196 := t.isLt
  funext j
  have hp : (j 0).val < 4096 := (j 0).isLt
  have hq : (j 1).val < 256 := (j 1).isLt
  refine (congrFun (out_block _ _ _) _).trans ?_
  have hemb : ((cfg1.win 3).blk t).view.emb j
      = (ix2 (⟨t.val * 4096 + (j 0).val, by omega⟩ : Fin 802816) (⟨(j 1).val, hq⟩ : Fin 256) : S802816x256.Idx) := by
    funext a
    apply Fin.ext
    match a with
    | ⟨0, _⟩ => show win1_3.index t (0 : Fin 2) * 4096 + 1 * (j 0).val = t.val * 4096 + (j 0).val; rw [h0]; omega
    | ⟨1, _⟩ => show win1_3.index t (1 : Fin 2) * 256 + 1 * (j 1).val = (j 1).val; rw [h1]; omega
  refine Eq.trans ?_ (congrArg (arrMsg (V c main_v45) (V c main_v38) (V c main_v37)) hemb).symm
  show msgAt (iblk1 V c 0 t) (iblk1 V c 1 t) (iblk1 V c 2 t) ⟨(j 0).val, hp⟩ ⟨(j 1).val, hq⟩
    = edgeMsg (V c main_v45) (V c main_v38) (V c main_v37) ⟨t.val * 4096 + (j 0).val, by omega⟩ ⟨(j 1).val, hq⟩
  unfold msgAt edgeMsg
  exact congrArg₂ (· * ·) (norm_block V c t _ _ rfl)
    (congrArg₂ (· + ·) (rows_block V c t _ _ _ rfl) (attr_block V c t _ _ _ rfl))

/-- An index of the output array is in point `t`'s block iff each coordinate is in the block's range on its axis. -/
theorem mem_blk (t : Fin cfg1.N) (i : S802816x256.Idx) :
    i ∈ ((cfg1.win 3).blk t).view.set ↔ ∀ a : Fin 2, win1_3.index t a * S4096x256.size a ≤ (i a).val
      ∧ (i a).val < win1_3.index t a * S4096x256.size a + S4096x256.size a := by
  show i ∈ ((View.whole main_v46).slice (win1_3.rect t)).set ↔ _
  rw [View.set_slice_whole, Rect.mem_set_unit]
  exact Iff.rfl

/-- The 196 row blocks cover the output array: row `r` is in the block of point `r / 4096`. -/
theorem cover (i : S802816x256.Idx) :
    ∃ t : Fin cfg1.N, (cfg1.win 3).flush t = true ∧ i ∈ ((cfg1.win 3).blk t).view.set := by
  have hi0 : (i 0).val < 802816 := (i 0).isLt
  have hi1 : (i 1).val < 256 := (i 1).isLt
  have hN : (i 0).val / 4096 < cfg1.N := by show (i 0).val / 4096 < 196; omega
  obtain ⟨-, -, -, -, -, -, h0, h1⟩ := idx_facts ⟨(i 0).val / 4096, hN⟩
  refine ⟨⟨(i 0).val / 4096, hN⟩, flush1_3 _, ?_⟩
  rw [mem_blk]
  intro a
  match a with
  | ⟨0, _⟩ =>
    show win1_3.index ⟨(i 0).val / 4096, hN⟩ (0 : Fin 2) * 4096 ≤ (i 0).val
      ∧ (i 0).val < win1_3.index ⟨(i 0).val / 4096, hN⟩ (0 : Fin 2) * 4096 + 4096
    rw [h0]; show (i 0).val / 4096 * 4096 ≤ (i 0).val ∧ (i 0).val < (i 0).val / 4096 * 4096 + 4096; omega
  | ⟨1, _⟩ =>
    show win1_3.index ⟨(i 0).val / 4096, hN⟩ (1 : Fin 2) * 256 ≤ (i 1).val
      ∧ (i 1).val < win1_3.index ⟨(i 0).val / 4096, hN⟩ (1 : Fin 2) * 256 + 256
    rw [h1]; omega

/-- The output array after the region is the array of messages of the arrays the region finds. -/
theorem msg_array (c : Dev nD) :
    (dat1 (F := Ideal) V c).arrAt 3 cfg1.N = arrMsg (V c main_v45) (V c main_v38) (V c main_v37) :=
  (dat1 V c).arrAt_eq_of_cover 3 _ (fun t _ => flushed_eq V c t) cover

/-- The output array after the region, entry by entry: at edge `e` and column `q`, the norm of edge `e` times the
    sum of the gathered row's entry `q` and the edge attribute's entry `q mod 128`. -/
theorem msg_final (c : Dev nD) (e : Fin 802816) (q : Fin 256) :
    (dat1 (F := Ideal) V c).arrAt 3 cfg1.N (ix2 e q)
      = edgeMsg (V c main_v45) (V c main_v38) (V c main_v37) e q := by
  rw [msg_array]
  rfl

end Array

end Cert.Gcn.Region1

end
-- ==== Proof.LibScatterRows.lean ====
/-
  Rows added into a matrix at rows named by a column of start indices, read at an entry.

  `m.at[idx].add(u)` for a matrix `m : [n, d]`, a column `idx : [e, 1]` of start indices and updates `u : [e, d]` adds row
  r of the updates into the row of `m` that the r-th start index names, when that index, read as a signed integer,
  is a row number below n; otherwise row r is dropped.  So an update entry (r, j) that lands on the entry (p, c) has
  its start index, read signed, equal to p (`start_of_lands`).  Such a start index is not negative, so the wrap a
  gather applies to negative indices leaves it alone (`wrap_of_nonneg`), and the gather's clamp reads it as the row p
  too (`rowOf_of_toInt`): the row a message is added into is the row a gather with the same index would read.
-/
import Idealize.ShloMosaic.Lib.ValueIdx
import proofs.«174591_j22574348108072_1_alg».proof.Proof.LibGatherRows

noncomputable section

namespace Cert.LibScatterRows

open Idealize.ShloMosaic Idealize.ShloMosaic.ValueIdx Cert.LibGatherRows

/-- The dimension numbers of `m.at[idx].add(u)`: `m : [n, d]`, a column `idx : [e, 1]`, `u : [e, d]`. -/
abbrev addRowsDims (n d e : Nat) (wf : ScatterDims.WF ⟨2, ![n, d]⟩ ⟨2, ![e, 1]⟩ ⟨2, ![e, d]⟩ [1] [0] [0] 1) :
    ScatterDims ⟨2, ![n, d]⟩ ⟨2, ![e, 1]⟩ ⟨2, ![e, d]⟩ where
  updateWindowDims := [1]
  insertedWindowDims := [0]
  scatterDimsToOperandDims := [0]
  indexVectorDim := 1
  wf := wf

/-- An update entry (r, j) that lands on the entry (p, c): the r-th start index, read signed, is p. -/
theorem start_of_lands {n d e w : Nat} (wf : ScatterDims.WF ⟨2, ![n, d]⟩ ⟨2, ![e, 1]⟩ ⟨2, ![e, d]⟩ [1] [0] [0] 1)
    (idx : IVec ⟨2, ![e, 1]⟩ w) (r : Fin e) (j : Fin d) (p : Fin n) (c : Fin d)
    (h : (addRowsDims n d e wf).resultIdx? (ix2 r j) idx = some (ix2 p c)) :
    (idx (ix2 r (0 : Fin 1))).toInt = (p.val : Int) := by
  have hmem : (0 : Fin 2) ∈ (addRowsDims n d e wf).scatterDimsToOperandDims := List.mem_singleton.mpr rfl
  have hstart : (addRowsDims n d e wf).start (ix2 r j) idx (0 : Fin 2) = (idx (ix2 r (0 : Fin 1))).toInt := by
    unfold ScatterDims.start
    rw [dif_pos hmem]
    have hsi : (addRowsDims n d e wf).siIdx (ix2 r j) ⟨List.idxOf (0 : Fin 2) (addRowsDims n d e wf).scatterDimsToOperandDims,
        List.idxOf_lt_length_iff.2 hmem⟩ = ix2 r (0 : Fin 1) := by
      funext b; refine Fin.ext ?_
      match b with
      | ⟨0, _⟩ => rfl
      | ⟨1, _⟩ => rfl
    rw [hsi]
  have hwin : (addRowsDims n d e wf).window (ix2 r j) (0 : Fin 2) = 0 := by
    unfold ScatterDims.window
    rw [dif_neg (by simp [ScatterDims.sKept, Shape.kept, List.mem_filter, List.mem_finRange])]
  unfold ScatterDims.resultIdx? at h
  split at h
  · rename_i hin
    have h0 := congrFun (Option.some.inj h) (0 : Fin 2)
    have hv : ((addRowsDims n d e wf).start (ix2 r j) idx (0 : Fin 2) + (addRowsDims n d e wf).window (ix2 r j) (0 : Fin 2)).toNat = p.val :=
      congrArg Fin.val h0
    have hnn := (hin (0 : Fin 2)).1
    rw [hstart, hwin] at hv hnn
    simp only [Nat.cast_zero, add_zero] at hv hnn
    omega
  · exact absurd h (by simp)

/-- A start index that reads, signed, as the row number p names the row p. -/
theorem rowOf_of_toInt {n w : Nat} (hn : 0 < n) (b : BitVec w) (p : Fin n) (h : b.toInt = (p.val : Int)) :
    rowOf n hn b = p := by
  apply Fin.ext
  show min b.toInt.toNat (n - 1) = p.val
  rw [h, Int.toNat_natCast]
  have := p.isLt
  omega

/-- The wrap of negative indices leaves a nonnegative index alone. -/
theorem wrap_of_nonneg (b k : BitVec 32) (h : 0 ≤ b.toInt) :
    Scalar.select (IntOp.cmpi .slt b 0#32) (IntOp.addi b k) b = b := by
  have hs : b.slt 0#32 = false := by
    simp only [BitVec.slt, BitVec.toInt_zero]
    exact decide_eq_false (not_lt.mpr h)
  have hc : IntOp.cmpi .slt b 0#32 = 0#1 := by
    show BitVec.ofBool (b.slt 0#32) = 0#1
    rw [hs]; rfl
  rw [hc]
  exact if_neg (by decide)

end Cert.LibScatterRows

end
-- ==== Proof.LibScatterSum.lean ====
/-
  Rows added into a matrix at rows named by a column of start indices, read at an entry as ONE sum over the updates' rows.

  m.at[idx].add(u) for m : [n, d], a column idx : [e, 1] of start words and updates u : [e, d], over the extended reals:
  the entry (p, c) of the result is the entry (p, c) of m plus the sum, over the update rows r whose start word read as
  a signed integer is p, of u (r, c).  A row whose start word names no row of m (negative, or n and beyond) is
  dropped; the sum is exact, so the order in which colliding rows are added does not matter.
-/
import Idealize.ShloMosaic.Lib.ValueIdx
import Idealize.ShloMosaic.PureOps.Ideal
import Idealize.ShloMosaic.PureOps.Ideal.Laws
import proofs.«174591_j22574348108072_1_alg».proof.Proof.LibScatterRows

noncomputable section

open scoped BigOperators

namespace Cert.LibScatterSum

open Idealize.ShloMosaic Idealize.ShloMosaic.ValueIdx Cert.LibGatherRows Cert.LibScatterRows

section Coordinates

variable {n d e w : Nat} (wf : ScatterDims.WF ⟨2, ![n, d]⟩ ⟨2, ![e, 1]⟩ ⟨2, ![e, d]⟩ [1] [0] [0] 1)
  (idx : IVec ⟨2, ![e, 1]⟩ w) (r : Fin e) (j : Fin d)

/-- On the row axis the window of the update entry (r, j) starts at the r-th start word, read signed. -/
theorem start_row : (addRowsDims n d e wf).start (ix2 r j) idx (0 : Fin 2) = (idx (ix2 r (0 : Fin 1))).toInt := by
  have hmem : (0 : Fin 2) ∈ (addRowsDims n d e wf).scatterDimsToOperandDims := List.mem_singleton.mpr rfl
  unfold ScatterDims.start
  rw [dif_pos hmem]
  have hsi : (addRowsDims n d e wf).siIdx (ix2 r j) ⟨List.idxOf (0 : Fin 2) (addRowsDims n d e wf).scatterDimsToOperandDims,
      List.idxOf_lt_length_iff.2 hmem⟩ = ix2 r (0 : Fin 1) := by
    funext b; refine Fin.ext ?_
    match b with
    | ⟨0, _⟩ => rfl
    | ⟨1, _⟩ => rfl
  rw [hsi]

/-- On the column axis no start word is read: the window starts at column 0. -/
theorem start_col : (addRowsDims n d e wf).start (ix2 r j) idx (1 : Fin 2) = 0 := by
  unfold ScatterDims.start
  rw [dif_neg (show ¬ (1 : Fin 2) ∈ (addRowsDims n d e wf).scatterDimsToOperandDims from
    fun h => (by decide : (1 : Fin 2) ≠ 0) (List.mem_singleton.mp h))]

/-- The row axis is an inserted window axis: the window coordinate there is 0. -/
theorem window_row : (addRowsDims n d e wf).window (ix2 r j) (0 : Fin 2) = 0 := by
  unfold ScatterDims.window
  rw [dif_neg (by simp [ScatterDims.sKept, Shape.kept, List.mem_filter, List.mem_finRange])]

/-- The column axis carries the update's window axis: the window coordinate there is the update's column. -/
theorem window_col : (addRowsDims n d e wf).window (ix2 r j) (1 : Fin 2) = j.val := by
  have hk : (1 : Fin 2) ∈ (addRowsDims n d e wf).sKept := by
    simp [ScatterDims.sKept, Shape.kept, List.mem_filter, List.mem_finRange]
  unfold ScatterDims.window
  rw [dif_pos hk]
  rfl

end Coordinates

/-- The update entry (r, j) lands on the entry (p, c) exactly when the r-th start word, read signed, is p and j is c. -/
theorem lands_iff {n d e w : Nat} (wf : ScatterDims.WF ⟨2, ![n, d]⟩ ⟨2, ![e, 1]⟩ ⟨2, ![e, d]⟩ [1] [0] [0] 1)
    (idx : IVec ⟨2, ![e, 1]⟩ w) (r : Fin e) (j : Fin d) (p : Fin n) (c : Fin d) :
    (addRowsDims n d e wf).resultIdx? (ix2 r j) idx = some (ix2 p c)
      ↔ (idx (ix2 r (0 : Fin 1))).toInt = (p.val : Int) ∧ j = c := by
  constructor
  · intro h
    refine ⟨start_of_lands wf idx r j p c h, ?_⟩
    unfold ScatterDims.resultIdx? at h
    split at h
    · have h1 := congrFun (Option.some.inj h) (1 : Fin 2)
      have hv : ((addRowsDims n d e wf).start (ix2 r j) idx (1 : Fin 2)
          + (addRowsDims n d e wf).window (ix2 r j) (1 : Fin 2)).toNat = c.val := congrArg Fin.val h1
      rw [start_col, window_col] at hv
      exact Fin.ext (by omega)
    · exact absurd h (by simp)
  · rintro ⟨hp, rfl⟩
    have hin : ∀ a : Fin 2, 0 ≤ (addRowsDims n d e wf).start (ix2 r j) idx a + (addRowsDims n d e wf).window (ix2 r j) a
        ∧ (addRowsDims n d e wf).start (ix2 r j) idx a + (addRowsDims n d e wf).window (ix2 r j) a
          < (⟨2, ![n, d]⟩ : Shape).size a := by
      intro a
      match a with
      | ⟨0, _⟩ =>
        show 0 ≤ (addRowsDims n d e wf).start (ix2 r j) idx (0 : Fin 2) + (addRowsDims n d e wf).window (ix2 r j) (0 : Fin 2)
          ∧ (addRowsDims n d e wf).start (ix2 r j) idx (0 : Fin 2) + (addRowsDims n d e wf).window (ix2 r j) (0 : Fin 2) < (n : Int)
        rw [start_row, window_row, hp]
        have := p.isLt
        omega
      | ⟨1, _⟩ =>
        show 0 ≤ (addRowsDims n d e wf).start (ix2 r j) idx (1 : Fin 2) + (addRowsDims n d e wf).window (ix2 r j) (1 : Fin 2)
          ∧ (addRowsDims n d e wf).start (ix2 r j) idx (1 : Fin 2) + (addRowsDims n d e wf).window (ix2 r j) (1 : Fin 2) < (d : Int)
        rw [start_col, window_col]
        have := j.isLt
        omega
    unfold ScatterDims.resultIdx?
    rw [dif_pos hin]
    congr 1
    funext a
    refine Fin.ext ?_
    match a with
    | ⟨0, _⟩ =>
      show ((addRowsDims n d e wf).start (ix2 r j) idx (0 : Fin 2) + (addRowsDims n d e wf).window (ix2 r j) (0 : Fin 2)).toNat = p.val
      rw [start_row, window_row, hp]
      omega
    | ⟨1, _⟩ =>
      show ((addRowsDims n d e wf).start (ix2 r j) idx (1 : Fin 2) + (addRowsDims n d e wf).window (ix2 r j) (1 : Fin 2)).toNat = j.val
      rw [start_col, window_col]
      omega

/-- The accumulating scatter of rows at the entry (p, c): the operand's entry plus the updates of the rows sent to p. -/
theorem scatterAdd_rows_apply {n d e w : Nat} (wf : ScatterDims.WF ⟨2, ![n, d]⟩ ⟨2, ![e, 1]⟩ ⟨2, ![e, d]⟩ [1] [0] [0] 1)
    (x : FVec Ideal ⟨2, ![n, d]⟩ .f32) (idx : IVec ⟨2, ![e, 1]⟩ w) (upd : FVec Ideal ⟨2, ![e, d]⟩ .f32) (p : Fin n) (c : Fin d) :
    Host.scatterAdd (addRowsDims n d e wf) x idx upd (ix2 p c)
      = x (ix2 p c) + ∑ r : Fin e, if (idx (ix2 r (0 : Fin 1))).toInt = (p.val : Int) then upd (ix2 r c) else 0 := by
  show x (ix2 p c) + ∑ j ∈ Finset.univ.filter (fun j => (addRowsDims n d e wf).resultIdx? j idx = some (ix2 p c)), upd j = _
  congr 1
  rw [Finset.sum_filter, sum_idx2]
  refine Finset.sum_congr rfl fun r _ => ?_
  by_cases hp : (idx (ix2 r (0 : Fin 1))).toInt = (p.val : Int)
  · rw [if_pos hp]
    have hc : ∀ j : Fin d, (if (addRowsDims n d e wf).resultIdx? (ix2 r j) idx = some (ix2 p c) then upd (ix2 r j) else 0)
        = if j = c then upd (ix2 r j) else 0 := by
      intro j
      by_cases hj : j = c
      · rw [if_pos ((lands_iff wf idx r j p c).mpr ⟨hp, hj⟩), if_pos hj]
      · rw [if_neg (fun h => hj ((lands_iff wf idx r j p c).mp h).2), if_neg hj]
    rw [Finset.sum_congr rfl fun j _ => hc j, Finset.sum_ite_eq' Finset.univ c, if_pos (Finset.mem_univ c)]
  · rw [if_neg hp]
    refine Finset.sum_eq_zero fun j _ => ?_
    rw [if_neg (fun h => hp ((lands_iff wf idx r j p c).mp h).1)]

end Cert.LibScatterSum

end
-- ==== Proof.LibPadRows.lean ====
/-
  An array padded at the high end of its first axis, read at an index, and a sum over the padded range.

  stablehlo.pad with no low and no interior padding and b entries of high padding on the first axis (none on any other
  axis) turns an array of a rows into one of a + b rows: row r of the result is row r of the operand when r < a, and
  every entry of a row r ≥ a is the padding value.  Stated for a flat array [a] (pad_high_1d_apply) and for a matrix
  [a, d] padded along its rows (pad_high_rows_apply); the padded extent is a variable m that the shape condition
  forces to be a + b (pads_high_extent_1d, pads_high_extent_rows).  Last, the sum that such a padding leaves unchanged:
  a family over m indices that agrees with a family over a ≤ m indices on the first a of them and is 0 on the rest has
  the same sum (sum_pad_zero).
-/
import Idealize.ShloMosaic.Lib.ValueIdx
import Idealize.ShloMosaic.Lib.KernelVsHost
import Mathlib.Algebra.BigOperators.Fin

noncomputable section

open scoped BigOperators

namespace Cert.LibPadRows

open Idealize.ShloMosaic Idealize.ShloMosaic.ValueIdx

variable {α : Type}

/-- High padding by b of a flat array of a entries gives a + b entries. -/
theorem pads_high_extent_1d {a b m : Nat}
    (h : (⟨1, ![a]⟩ : Shape).Pads (![0] : Fin 1 → Nat) ![b] ![0] ⟨1, ![m]⟩) : m = a + b := by
  have h0 : m = 0 + a + 0 * (a - 1) + b := h.2 (0 : Fin 1)
  omega

/-- A flat array padded at its high end, read at r: the operand's entry r when r is below the operand's extent, the
    padding value otherwise. -/
theorem pad_high_1d_apply {a b m : Nat} (x : (⟨1, ![a]⟩ : Shape).Idx → α) (v : (⟨0, ![]⟩ : Shape).Idx → α)
    (h : (⟨1, ![a]⟩ : Shape).Pads (![0] : Fin 1 → Nat) ![b] ![0] ⟨1, ![m]⟩) (hu : 0 < (⟨0, ![]⟩ : Shape).numel)
    (r : Fin m) :
    pad ⟨1, ![m]⟩ ![0] ![b] ![0] x v h hu (ix1 r) = if hr : r.val < a then x (ix1 ⟨r.val, hr⟩) else v ix0 := by
  by_cases hr : r.val < a
  · rw [dif_pos hr]
    exact pad_apply_of_inside _ _ _ x v h hu _ (ix1 (⟨r.val, hr⟩ : Fin a)) (by
      intro k
      have hk : k = 0 := Subsingleton.elim _ _
      subst hk
      show r.val = 0 + r.val * (0 + 1); omega)
  · rw [dif_neg hr]
    refine (pad_apply_of_not_inside _ _ _ x v h hu _ (0 : Fin 1) ?_).trans (congrArg v (eq_ix0 _))
    intro hin
    have e : (r.val - 0) / (0 + 1) < a := hin.2.2
    rw [Nat.sub_zero, Nat.zero_add, Nat.div_one] at e
    exact hr e

/-- High padding by b of the rows of a matrix of a rows gives a + b rows. -/
theorem pads_high_extent_rows {a b m d : Nat}
    (h : (⟨2, ![a, d]⟩ : Shape).Pads (![0, 0] : Fin 2 → Nat) ![b, 0] ![0, 0] ⟨2, ![m, d]⟩) : m = a + b := by
  have h0 : m = 0 + a + 0 * (a - 1) + b := h.2 (0 : Fin 2)
  omega

/-- A matrix padded at the high end of its rows only, read at (r, c): the operand's entry (r, c) when r is below the
    operand's number of rows, the padding value otherwise. -/
theorem pad_high_rows_apply {a b m d : Nat} (x : (⟨2, ![a, d]⟩ : Shape).Idx → α) (v : (⟨0, ![]⟩ : Shape).Idx → α)
    (h : (⟨2, ![a, d]⟩ : Shape).Pads (![0, 0] : Fin 2 → Nat) ![b, 0] ![0, 0] ⟨2, ![m, d]⟩)
    (hu : 0 < (⟨0, ![]⟩ : Shape).numel) (r : Fin m) (c : Fin d) :
    pad ⟨2, ![m, d]⟩ ![0, 0] ![b, 0] ![0, 0] x v h hu (ix2 r c)
      = if hr : r.val < a then x (ix2 ⟨r.val, hr⟩ c) else v ix0 := by
  by_cases hr : r.val < a
  · rw [dif_pos hr]
    exact pad_apply_of_inside _ _ _ x v h hu _ (ix2 (⟨r.val, hr⟩ : Fin a) c) (by
      intro k
      match k with
      | ⟨0, _⟩ => show r.val = 0 + r.val * (0 + 1); omega
      | ⟨1, _⟩ => show c.val = 0 + c.val * (0 + 1); omega)
  · rw [dif_neg hr]
    refine (pad_apply_of_not_inside _ _ _ x v h hu _ (0 : Fin 2) ?_).trans (congrArg v (eq_ix0 _))
    intro hin
    have e : (r.val - 0) / (0 + 1) < a := hin.2.2
    rw [Nat.sub_zero, Nat.zero_add, Nat.div_one] at e
    exact hr e

/-- A family over m indices that agrees with a family over a ≤ m indices on the first a of them and is 0 on the rest
    has the same sum. -/
theorem sum_pad_zero {M : Type*} [AddCommMonoid M] {a m : Nat} (ham : a ≤ m) (f : Fin m → M) (g : Fin a → M)
    (hin : ∀ (r : Fin m) (hr : r.val < a), f r = g ⟨r.val, hr⟩) (hout : ∀ r : Fin m, a ≤ r.val → f r = 0) :
    ∑ r, f r = ∑ r, g r := by
  obtain ⟨k, rfl⟩ : ∃ k, m = a + k := ⟨m - a, by omega⟩
  rw [Fin.sum_trunc f fun j => hout (Fin.natAdd a j) (by simp)]
  exact Finset.sum_congr rfl fun i _ => hin (Fin.castAdd k i) i.isLt

end Cert.LibPadRows

end
-- ==== Proof.KernelOut.lean ====
/-
  The kernel program's two results, entry by entry.

  The second region leaves, in row r of its output, the message of edge r (both branches side by side) when r is below
  the padding, and zero in the padding, where the padded weight is zero.  The host tail scatter-adds the rows at the
  padded target words into zeros, adds the first region's projections, and slices the two 128-column halves apart.  A
  sum over the padded rows in which every padded row contributes zero is the sum over the edges, so each half is the
  graph convolution's output for its weight set.
-/
import proofs.«174591_j22574348108072_1_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost
import proofs.«174591_j22574348108072_1_alg».proof.Proof.Spec
import proofs.«174591_j22574348108072_1_alg».proof.Proof.LibGatherRows
import proofs.«174591_j22574348108072_1_alg».proof.Proof.LibLayout
import proofs.«174591_j22574348108072_1_alg».proof.Proof.LibConsts
import proofs.«174591_j22574348108072_1_alg».proof.Proof.KernelWords
import proofs.«174591_j22574348108072_1_alg».proof.Proof.KernelNorm
import proofs.«174591_j22574348108072_1_alg».proof.Proof.KernelProj
import proofs.«174591_j22574348108072_1_alg».proof.Proof.Region1
import proofs.«174591_j22574348108072_1_alg».proof.Proof.LibScatterSum
import proofs.«174591_j22574348108072_1_alg».proof.Proof.LibPadRows

set_option maxRecDepth 16384

noncomputable section

open scoped BigOperators

namespace Cert.Gcn.KernelOut
open Cert.KernelIdeal Cert.KernelIdeal.Gen Cert.Gcn.KernelWords Cert.Gcn.KernelNorm Cert.Gcn.KernelProj
open Cert.LibScatterSum Cert.LibScatterRows Cert.LibPadRows
open Idealize.ShloMosaic Idealize.ShloMosaic.TcCoe Idealize.SL.Sem Idealize.ShloMosaic.StableHlo Idealize.ShloMosaic.ValueIdx
variable (m : (ℓ : Loc nD τ sig) → Buf (Elt Ideal) ℓ) (ρ : Dev nD → PrngReg) (c : Dev nD)

/-- The padded weight column below the padding is the edge's weight. -/
theorem normcol_lt (r : Fin 802816) (hr : r.val < 800000) :
    W13 (F := Ideal) m ρ c (Proc.devRef .tc main_v37) (ix2 r (0 : Fin 1))
      = Cert.Gcn.nrm (degK m c) (m ((c.tc : Thread nD τ).loc main_arg1)) ⟨r.val, hr⟩ := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (W5 m ρ c)))))))) (Proc.devRef .tc main_v37) (ix2 r (0 : Fin 1)) = _
  generalize hV : W5 (F := Ideal) m ρ c = V5
  after_results_simp
  subst hV
  refine (Cert.LibLayout.shapeCast_a_a1_apply _ shapeCasts_S802816_S802816x1 r (0 : Fin 1)).trans ?_
  refine (pad_apply_of_inside ![0] ![2816] ![0] _ _ pads_S800000_S802816_028160 h_S_ (ix1 r) (ix1 (⟨r.val, hr⟩ : Fin 800000))
    (fun a => match a with | ⟨0, _⟩ => by show r.val = 0 + r.val * (0 + 1); omega)).trans ?_
  exact normK_apply m ρ c ⟨r.val, hr⟩

/-- The padded weight column in the padding is zero. -/
theorem normcol_ge (r : Fin 802816) (hr : 800000 ≤ r.val) :
    W13 (F := Ideal) m ρ c (Proc.devRef .tc main_v37) (ix2 r (0 : Fin 1)) = (0 : EReal) := by
  show StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (W5 m ρ c)))))))) (Proc.devRef .tc main_v37) (ix2 r (0 : Fin 1)) = _
  generalize hV : W5 (F := Ideal) m ρ c = V5
  after_results_simp
  refine (Cert.LibLayout.shapeCast_a_a1_apply _ shapeCasts_S802816_S802816x1 r (0 : Fin 1)).trans ?_
  refine (pad_apply_of_not_inside (s := S800000) (t := S802816) ![0] ![2816] ![0] _ _ pads_S800000_S802816_028160 h_S_ (ix1 r) (0 : Fin 1)
    (by show ¬(0 ≤ r.val ∧ (r.val - 0) % (0 + 1) = 0 ∧ (r.val - 0) / (0 + 1) < 800000); omega)).trans ?_
  show ((((0#32 : BitVec 32).toInt : ℤ) : ℝ) : EReal) = 0
  simp

section Half
/- One 128-column half of the 256-column arrays: column q carries channel j of the projection by (Wt, bt). -/
variable (Wt : S128x128.Idx → EReal) (bt : S128.Idx → EReal) (q : Fin 256) (j : Fin 128) (hqj : q.val % 128 = j.val)
  (hh : ∀ p : Fin 50000, W2 (F := Ideal) m ρ c (Proc.devRef .tc main_v8) (ix2 p q)
      = Cert.Gcn.lin (m ((c.tc : Thread nD τ).loc main_arg0)) Wt bt p j)
include hqj hh

/-- Row r of the second region's output below the padding is the message of edge r. -/
theorem msgcat_lt (r : Fin 802816) (hr : r.val < 800000) :
    W14 (F := Ideal) m ρ c (Proc.devRef .tc main_v46) (ix2 r q)
      = Cert.Gcn.msg (degK m c) (m ((c.tc : Thread nD τ).loc main_arg0)) (m ((c.tc : Thread nD τ).loc main_arg1))
          (m ((c.tc : Thread nD τ).loc main_arg2)) Wt bt ⟨r.val, hr⟩ j := by
  refine (congrFun (W14_arr m ρ c 3) (ix2 r q)).trans ?_
  refine (Cert.Gcn.Region1.msg_final (V13 m ρ) c r q).trans ?_
  unfold Cert.Gcn.Region1.edgeMsg Cert.Gcn.msg
  refine congrArg₂ (fun a b : EReal => a * b) (normcol_lt m ρ c r hr) (congrArg₂ (fun a b : EReal => a + b) ?_ ?_)
  · exact (hrow_lt m ρ c r hr q).trans (hh _)
  · have hj : (⟨q.val % 128, Nat.mod_lt _ (by decide)⟩ : Fin 128) = j := Fin.ext hqj
    rw [hj]
    exact eapad_lt m ρ c r hr j

omit hqj hh in
/-- Row r of the second region's output in the padding is zero: its weight is. -/
theorem msgcat_ge (r : Fin 802816) (hr : 800000 ≤ r.val) :
    W14 (F := Ideal) m ρ c (Proc.devRef .tc main_v46) (ix2 r q) = (0 : EReal) := by
  refine (congrFun (W14_arr m ρ c 3) (ix2 r q)).trans ?_
  refine (Cert.Gcn.Region1.msg_final (V13 m ρ) c r q).trans ?_
  unfold Cert.Gcn.Region1.edgeMsg
  refine (congrArg (fun a : EReal => a * _) (normcol_ge m ρ c r hr)).trans (zero_mul _)

omit hqj hh in
/-- The target word of padded row r, below the padding. -/
theorem colword_lt (r : Fin 802816) (hr : r.val < 800000) :
    W14 (F := Ideal) m ρ c (Proc.devRef .tc main_v35) (ix1 r) = m ((c.tc : Thread nD τ).loc main_arg1) (ix2 (1 : Fin 2) ⟨r.val, hr⟩) :=
  (congrFun (W14_of_ne m ρ c main_v35 (by decide)) (ix1 r)).trans (colpad_lt m ρ c r hr)

omit hqj hh in
/-- No stretch between the regions, and not the second region, writes the first region's output. -/
theorem hcat_kept : W14 (F := Ideal) m ρ c (Proc.devRef .tc main_v8) = W2 m ρ c (Proc.devRef .tc main_v8) := by
  refine (W14_of_ne m ρ c main_v8 (by decide)).trans ?_
  after_results_simp

/-- The aggregation plus the residual at (n, q): the messages of the edges into n, summed from zero over the UNPADDED
    edges (a padded row adds zero), plus n's own projection. -/
theorem out_half (n : Fin 50000) :
    Host.scatterAdd (F := Ideal) scatter_S50000x256_S802816x1_S802816x256_1_0_0_1
        (broadcastInDim S50000x256 ![] bcast_S_S50000x256 (constant S_ .f32 0x00000000#32))
        (broadcastInDim S802816x1 ![0] bcast_S802816_S802816x1_0 (W14 m ρ c (Proc.devRef .tc main_v35)))
        (W14 m ρ c (Proc.devRef .tc main_v46)) (ix2 n q)
      + W14 m ρ c (Proc.devRef .tc main_v8) (ix2 n q)
    = Cert.Gcn.out (degK m c) (m ((c.tc : Thread nD τ).loc main_arg0)) (m ((c.tc : Thread nD τ).loc main_arg1))
          (m ((c.tc : Thread nD τ).loc main_arg2)) Wt bt n j := by
  unfold Cert.Gcn.out
  refine congrArg₂ (fun a b : EReal => a + b) ?_ ((congrFun (hcat_kept m ρ c) (ix2 n q)).trans (hh n))
  refine (scatterAdd_rows_apply (n := 50000) (d := 256) (e := 802816) _ _ _ _ n q).trans ?_
  refine congrArg₂ (fun a b : EReal => a + b) (broadcastInDim_scalar_apply _ _ _) ?_
  refine sum_pad_zero (a := 800000) (m := 802816) (by decide) _ _ (fun r hr => ?_) (fun r hr => ?_)
  · rw [Cert.LibLayout.broadcastInDim_a_a1_apply _ bcast_S802816_S802816x1_0 r (0 : Fin 1), colword_lt m ρ c r hr,
      msgcat_lt m ρ c Wt bt q j hqj hh r hr]
  · rw [msgcat_ge m ρ c q r hr]
    exact ite_self _
end Half

/-- The first result at (n, j): channel j of the first 128 columns. -/
theorem kernel_mean (n : Fin 50000) (j : Fin 128) :
    W15 (F := Ideal) m ρ c (Proc.devRef .tc main_v51) (ix2 n j)
      = Cert.Gcn.out (degK m c) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) n j := by
  show StableHlo.after hostOps2 (W14 m ρ c) (Proc.devRef .tc main_v51) (ix2 n j) = _
  after_results_simp
  refine (extractStridedSlice_apply ![0, 0] _ slices_S50000x256_S50000x128_0_0 (ix2 n j) (ix2 n (⟨j.val, by omega⟩ : Fin 256)) (fun a => match a with
    | ⟨0, _⟩ => by show n.val = 0 + n.val; omega
    | ⟨1, _⟩ => by show j.val = 0 + j.val; omega)).trans ?_
  refine (addf_apply _ _ _).trans ?_
  exact out_half m ρ c _ _ (⟨j.val, by omega⟩ : Fin 256) j (by show j.val % 128 = j.val; omega) (fun p => hcat_mean m ρ c p j) n

/-- The second result at (n, j): channel j of the last 128 columns. -/
theorem kernel_std (n : Fin 50000) (j : Fin 128) :
    W15 (F := Ideal) m ρ c (Proc.devRef .tc main_v52) (ix2 n j)
      = Cert.Gcn.out (degK m c) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6)) n j := by
  show StableHlo.after hostOps2 (W14 m ρ c) (Proc.devRef .tc main_v52) (ix2 n j) = _
  after_results_simp
  refine (extractStridedSlice_apply ![0, 128] _ slices_S50000x256_S50000x128_0_128 (ix2 n j) (ix2 n (⟨j.val + 128, by omega⟩ : Fin 256)) (fun a => match a with
    | ⟨0, _⟩ => by show n.val = 0 + n.val; omega
    | ⟨1, _⟩ => by show j.val + 128 = 128 + j.val; omega)).trans ?_
  refine (addf_apply _ _ _).trans ?_
  exact out_half m ρ c _ _ (⟨j.val + 128, by omega⟩ : Fin 256) j (by show (j.val + 128) % 128 = j.val; omega) (fun p => hcat_std m ρ c p j) n

end Cert.Gcn.KernelOut

end
-- ==== Proof.RefMean.lean ====
/-
  The reference program's first result is the graph convolution of the specification, entry by entry.

  Its operations are read one at a time at literal indices.  The projection h = x * W^T + b is the specification's lin: a
  dot product against the transposed weights plus the bias row.  The two rows of the edge array are sliced out and
  flattened, so entry r of each is the edge array's entry (0, r) or (1, r).  Before every lookup a word is wrapped (a
  negative word has the node count added), and the lookup itself clamps, which together name the specification's node.
  The per-node factor is select (deg > 0) (rsqrt (max deg 1) * select (deg > 0) 1 0) 0; where the comparison holds the
  inner select is the word 1.0, which is the extended real 1, so the factor is rsqrt (max deg 1), and where it fails both
  sides are the zero word: this is the specification's dis.  The edge weight is the product of the two looked-up
  factors, the message is the weight (broadcast along the channels) times the looked-up projection row plus the edge's
  attribute row, and the result adds, at each node, the messages of the edges whose target word is that node to a zero
  array, then adds the node's own projection.
-/
import proofs.«174591_j22574348108072_1_alg».proof.Proof.ReadPatched
import proofs.«174591_j22574348108072_1_alg».proof.Proof.Spec
import proofs.«174591_j22574348108072_1_alg».proof.Proof.LibScatterSum
import proofs.«174591_j22574348108072_1_alg».proof.Proof.LibGatherRows
import proofs.«174591_j22574348108072_1_alg».proof.Proof.LibLayout
import proofs.«174591_j22574348108072_1_alg».proof.Proof.LibConsts

noncomputable section

open scoped BigOperators

namespace Cert.Gcn.RefMean

open Cert.ReferenceIdeal Cert.ReferenceIdeal.ReadP Idealize.ShloMosaic Idealize.ShloMosaic.ValueIdx
open Cert.LibGatherRows Cert.LibScatterRows Cert.LibScatterSum

/-- The projection at (n, j): the dot product of node n's features with row j of the weights, plus the bias at j. -/
theorem lin_apply (x0 : (⟨S50000x128, .f32⟩ : BufTy).Contents (Elt Ideal)) (x3 : (⟨S128x128, .f32⟩ : BufTy).Contents (Elt Ideal)) (x4 : (⟨S128, .f32⟩ : BufTy).Contents (Elt Ideal)) (n : Fin 50000) (j : Fin 128) :
    val_main_v4 (F := Ideal) x0 x3 x4 (ix2 n j) = Cert.Gcn.lin x0 x3 x4 n j := by
  rw [val_main_v4_apply, val_main_v1_apply, val_main_v3_apply, val_main_v2_apply]
  unfold Cert.Gcn.lin
  refine congrArg₂ (· + ·) (Finset.sum_congr rfl fun k _ => ?_) (congrArg x4 (funext fun a => ?_))
  · rw [val_main_v0_apply]
    refine congrArg₂ (· * ·) (congrArg x0 (funext fun a => ?_)) (congrArg x3 (funext fun a => ?_))
    · match a with
      | ⟨0, _⟩ => rfl
      | ⟨1, _⟩ => rfl
    · match a with
      | ⟨0, _⟩ => rfl
      | ⟨1, _⟩ => rfl
  · match a with
    | ⟨0, _⟩ => rfl

/-- Entry r of the flattened first row of the edge array is the edge's source word. -/
theorem roww (x1 : (⟨S2x800000, .i32⟩ : BufTy).Contents (Elt Ideal)) (r : Fin 800000) : val_main_v6 (F := Ideal) x1 (ix1 r) = x1 (ix2 (0 : Fin 2) r) := by
  rw [val_main_v6_apply, val_main_v5_apply]
  refine congrArg x1 (funext fun a => ?_)
  match a with
  | ⟨0, _⟩ => rfl
  | ⟨1, _⟩ => exact Fin.ext (Nat.mod_eq_of_lt r.isLt)

/-- Entry r of the flattened second row of the edge array is the edge's target word. -/
theorem colw (x1 : (⟨S2x800000, .i32⟩ : BufTy).Contents (Elt Ideal)) (r : Fin 800000) : val_main_v8 (F := Ideal) x1 (ix1 r) = x1 (ix2 (1 : Fin 2) r) := by
  rw [val_main_v8_apply, val_main_v7_apply]
  refine congrArg x1 (funext fun a => ?_)
  match a with
  | ⟨0, _⟩ => rfl
  | ⟨1, _⟩ => exact Fin.ext (Nat.mod_eq_of_lt r.isLt)

/-- The start column of the first factor's lookup holds, at row r, the wrapped source word. -/
theorem start_src (x1 : (⟨S2x800000, .i32⟩ : BufTy).Contents (Elt Ideal)) (r : Fin 800000) :
    val_main_v29 (F := Ideal) x1 (ix2 r (0 : Fin 1)) = wrap (x1 (ix2 (0 : Fin 2) r)) := by
  rw [val_main_v29_apply]
  refine (congrArg (val_main_v28 (F := Ideal) x1) (funext fun a => ?_ : idx_main_v29 (ix2 r (0 : Fin 1)) = ix1 r)).trans ?_
  · match a with
    | ⟨0, _⟩ => rfl
  · rw [val_main_v28_apply, val_main_v25_apply, val_main_v27_apply, val_main_v24_apply, val_main_v26_apply, roww]
    rfl

/-- The start column of the second factor's lookup holds, at row r, the wrapped target word. -/
theorem start_tgt (x1 : (⟨S2x800000, .i32⟩ : BufTy).Contents (Elt Ideal)) (r : Fin 800000) :
    val_main_v36 (F := Ideal) x1 (ix2 r (0 : Fin 1)) = wrap (x1 (ix2 (1 : Fin 2) r)) := by
  rw [val_main_v36_apply]
  refine (congrArg (val_main_v35 (F := Ideal) x1) (funext fun a => ?_ : idx_main_v36 (ix2 r (0 : Fin 1)) = ix1 r)).trans ?_
  · match a with
    | ⟨0, _⟩ => rfl
  · rw [val_main_v35_apply, val_main_v32_apply, val_main_v34_apply, val_main_v31_apply, val_main_v33_apply, colw]
    rfl

/-- The start column of the projection rows' lookup holds, at row r, the wrapped source word. -/
theorem start_row (x1 : (⟨S2x800000, .i32⟩ : BufTy).Contents (Elt Ideal)) (r : Fin 800000) :
    val_main_v45 (F := Ideal) x1 (ix2 r (0 : Fin 1)) = wrap (x1 (ix2 (0 : Fin 2) r)) := by
  rw [val_main_v45_apply]
  refine (congrArg (val_main_v44 (F := Ideal) x1) (funext fun a => ?_ : idx_main_v45 (ix2 r (0 : Fin 1)) = ix1 r)).trans ?_
  · match a with
    | ⟨0, _⟩ => rfl
  · rw [val_main_v44_apply, val_main_v41_apply, val_main_v43_apply, val_main_v40_apply, val_main_v42_apply, roww]
    rfl

/-- The start column of the final accumulation holds, at row r, the raw target word. -/
theorem start_acc (x1 : (⟨S2x800000, .i32⟩ : BufTy).Contents (Elt Ideal)) (r : Fin 800000) :
    val_main_v51 (F := Ideal) x1 (ix2 r (0 : Fin 1)) = x1 (ix2 (1 : Fin 2) r) := by
  rw [val_main_v51_apply]
  refine (congrArg (val_main_v8 (F := Ideal) x1) (funext fun a => ?_ : idx_main_v51 (ix2 r (0 : Fin 1)) = ix1 r)).trans (colw x1 r)
  match a with
  | ⟨0, _⟩ => rfl

/-- The one algebraic step: under the comparison bit c, the factor select c (s * select c 1.0 0.0) 0.0 is
    select c s 0.0, because the word 1.0 is the extended real 1. -/
theorem select_mul_select (c : BitVec 1) (s : EReal) :
    Scalar.select c (s * Scalar.select c (Ideal.ofBits .f32 0x3F800000#32) (Ideal.ofBits .f32 0x00000000#32))
        (Ideal.ofBits .f32 0x00000000#32)
      = Scalar.select c s (Ideal.ofBits .f32 0x00000000#32) := by
  rcases BitVec.eq_zero_or_eq_one c with h | h
  · rw [h, select_zero, select_zero]
  · rw [h, select_one, select_one, select_one, Cert.Consts.ofBits_one, EReal.coe_one, mul_one]

/-- The per-node factor at node p is the specification's dis of the program's own degree array. -/
theorem dis_apply (x1 : (⟨S2x800000, .i32⟩ : BufTy).Contents (Elt Ideal)) (p : Fin 50000) :
    val_main_v23 (F := Ideal) x1 (ix1 p) = dis (fun q => val_main_v12 (F := Ideal) x1 (ix1 q)) p := by
  rw [val_main_v23_apply, val_main_v14_apply, val_main_v22_apply, val_main_v17_apply, val_main_v16_apply,
    val_main_v21_apply, val_main_v20_apply, val_main_v19_apply, val_main_v13_apply, val_main_v15_apply,
    val_main_v18_apply, val_main_call0_v0_apply, val_main_call0_v1_apply, val_main_call1_v1_apply,
    val_main_call1_v0_apply, val_main_cst_1_apply, val_main_cst_2_apply, val_main_cst_3_apply, val_main_cst_4_apply,
    val_main_cst_5_apply, val_main_cst_6_apply]
  unfold dis
  beta_reduce
  generalize val_main_v12 (F := Ideal) x1 (ix1 p) = d
  exact select_mul_select (Ideal.cmp .ogt d (Ideal.ofBits .f32 0x00000000#32))
    (Ideal.rsqrt (max d (Ideal.ofBits .f32 0x3F800000#32)))

/-- The edge weight of edge r is the specification's nrm. -/
theorem nrm_apply (x1 : (⟨S2x800000, .i32⟩ : BufTy).Contents (Elt Ideal)) (r : Fin 800000) :
    val_main_v38 (F := Ideal) x1 (ix1 r) = nrm (fun q => val_main_v12 (F := Ideal) x1 (ix1 q)) x1 r := by
  have hsrc : val_main_v30 (F := Ideal) x1 (ix1 r) = dis (fun q => val_main_v12 (F := Ideal) x1 (ix1 q)) (node (x1 (ix2 (0 : Fin 2) r))) := by
    refine (gather_pick_apply (n := 50000) (e := 800000) (by decide) _ (val_main_v23 (F := Ideal) x1)
      (val_main_v29 (F := Ideal) x1) r).trans ?_
    rw [start_src]
    exact dis_apply x1 _
  have htgt : val_main_v37 (F := Ideal) x1 (ix1 r) = dis (fun q => val_main_v12 (F := Ideal) x1 (ix1 q)) (node (x1 (ix2 (1 : Fin 2) r))) := by
    refine (gather_pick_apply (n := 50000) (e := 800000) (by decide) _ (val_main_v23 (F := Ideal) x1)
      (val_main_v36 (F := Ideal) x1) r).trans ?_
    rw [start_tgt]
    exact dis_apply x1 _
  rw [val_main_v38_apply, hsrc, htgt]
  rfl

/-- The message of edge r at channel j is the specification's msg. -/
theorem msg_apply (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S128x128, .f32⟩ : BufTy).Contents (Elt Ideal)) (x4 : (⟨S128, .f32⟩ : BufTy).Contents (Elt Ideal)) (r : Fin 800000) (j : Fin 128) :
    val_main_v49 (F := Ideal) x0 x1 x2 x3 x4 (ix2 r j) = msg (fun q => val_main_v12 (F := Ideal) x1 (ix1 q)) x0 x1 x2 x3 x4 r j := by
  have hwt : val_main_v48 (F := Ideal) x1 (ix2 r j) = nrm (fun q => val_main_v12 (F := Ideal) x1 (ix1 q)) x1 r := by
    rw [val_main_v48_apply, val_main_v39_apply]
    refine (congrArg (val_main_v38 (F := Ideal) x1) (funext fun a => ?_ : idx_main_v39 (idx_main_v48 (ix2 r j)) = ix1 r)).trans
      (nrm_apply x1 r)
    match a with
    | ⟨0, _⟩ => rfl
  have hrow : val_main_v46 (F := Ideal) x0 x1 x3 x4 (ix2 r j) = lin x0 x3 x4 (node (x1 (ix2 (0 : Fin 2) r))) j := by
    refine (gather_rows_apply (n := 50000) (d := 128) (e := 800000) (by decide) _ (val_main_v4 (F := Ideal) x0 x3 x4)
      (val_main_v45 (F := Ideal) x1) r j).trans ?_
    rw [start_row]
    exact lin_apply x0 x3 x4 _ j
  rw [val_main_v49_apply, val_main_v47_apply, hwt, hrow]
  rfl

/-- The reference's first result at (n, j) is the specification's out, over the program's own degree array. -/
theorem ref_mean (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S128x128, .f32⟩ : BufTy).Contents (Elt Ideal)) (x4 : (⟨S128, .f32⟩ : BufTy).Contents (Elt Ideal)) (n : Fin 50000) (j : Fin 128) :
    val_main_v53 (F := Ideal) x0 x1 x2 x3 x4 (ix2 n j)
      = Cert.Gcn.out (fun p => val_main_v12 (F := Ideal) x1 (ix1 p)) x0 x1 x2 x3 x4 n j := by
  have hacc : val_main_v52 (F := Ideal) x0 x1 x2 x3 x4 (ix2 n j)
      = Ideal.ofBits .f32 0x00000000#32
        + ∑ e : Fin 800000, if (x1 (ix2 (1 : Fin 2) e)).toInt = (n.val : Int)
            then msg (fun q => val_main_v12 (F := Ideal) x1 (ix1 q)) x0 x1 x2 x3 x4 e j else 0 := by
    refine (scatterAdd_rows_apply (n := 50000) (d := 128) (e := 800000) _ (val_main_v50 (F := Ideal))
      (val_main_v51 (F := Ideal) x1) (val_main_v49 (F := Ideal) x0 x1 x2 x3 x4) n j).trans ?_
    refine congrArg₂ (· + ·) ?_ (Finset.sum_congr rfl fun e _ => ?_)
    · rw [val_main_v50_apply]
      rfl
    · rw [start_acc, msg_apply]
  rw [val_main_v53_apply, hacc, lin_apply]
  rfl

end Cert.Gcn.RefMean

end
-- ==== Proof.RefStd.lean ====
/-
  The reference program's second result is the graph convolution of the specification over the second weight set, entry
  by entry.

  Its operations are read one at a time at literal indices.  The projection h = x * W^T + b is the specification's lin: a
  dot product against the transposed weights plus the bias row.  The two rows of the edge array are sliced out and
  flattened, so entry r of each is the edge array's entry (0, r) or (1, r).  Before every lookup a word is wrapped (a
  negative word has the node count added), and the lookup itself clamps, which together name the specification's node.
  The per-node factor is select (deg > 0) (rsqrt (max deg 1) * select (deg > 0) 1 0) 0; where the comparison holds the
  inner select is the word 1.0, which is the extended real 1, so the factor is rsqrt (max deg 1), and where it fails both
  sides are the zero word: this is the specification's dis.  The edge weight is the product of the two looked-up
  factors, the message is the weight (broadcast along the channels) times the looked-up projection row plus the edge's
  attribute row, and the result adds, at each node, the messages of the edges whose target word is that node to a zero
  array, then adds the node's own projection.  The program computes the degree array a second time for this result, by
  the same operations on the same edge array, so it is the same array as the first.
-/
import proofs.«174591_j22574348108072_1_alg».proof.Proof.ReadPatched
import proofs.«174591_j22574348108072_1_alg».proof.Proof.Spec
import proofs.«174591_j22574348108072_1_alg».proof.Proof.LibScatterSum
import proofs.«174591_j22574348108072_1_alg».proof.Proof.LibGatherRows
import proofs.«174591_j22574348108072_1_alg».proof.Proof.LibLayout
import proofs.«174591_j22574348108072_1_alg».proof.Proof.LibConsts

noncomputable section

open scoped BigOperators

namespace Cert.Gcn.RefStd

open Cert.ReferenceIdeal Cert.ReferenceIdeal.ReadP Idealize.ShloMosaic Idealize.ShloMosaic.ValueIdx
open Cert.LibGatherRows Cert.LibScatterRows Cert.LibScatterSum

/-- The projection at (n, j): the dot product of node n's features with row j of the weights, plus the bias at j. -/
theorem lin_apply (x0 : (⟨S50000x128, .f32⟩ : BufTy).Contents (Elt Ideal)) (x5 : (⟨S128x128, .f32⟩ : BufTy).Contents (Elt Ideal)) (x6 : (⟨S128, .f32⟩ : BufTy).Contents (Elt Ideal)) (n : Fin 50000) (j : Fin 128) :
    val_main_v58 (F := Ideal) x0 x5 x6 (ix2 n j) = Cert.Gcn.lin x0 x5 x6 n j := by
  rw [val_main_v58_apply, val_main_v55_apply, val_main_v57_apply, val_main_v56_apply]
  unfold Cert.Gcn.lin
  refine congrArg₂ (· + ·) (Finset.sum_congr rfl fun k _ => ?_) (congrArg x6 (funext fun a => ?_))
  · rw [val_main_v54_apply]
    refine congrArg₂ (· * ·) (congrArg x0 (funext fun a => ?_)) (congrArg x5 (funext fun a => ?_))
    · match a with
      | ⟨0, _⟩ => rfl
      | ⟨1, _⟩ => rfl
    · match a with
      | ⟨0, _⟩ => rfl
      | ⟨1, _⟩ => rfl
  · match a with
    | ⟨0, _⟩ => rfl

/-- Entry r of the flattened first row of the edge array is the edge's source word. -/
theorem roww (x1 : (⟨S2x800000, .i32⟩ : BufTy).Contents (Elt Ideal)) (r : Fin 800000) : val_main_v60 (F := Ideal) x1 (ix1 r) = x1 (ix2 (0 : Fin 2) r) := by
  rw [val_main_v60_apply, val_main_v59_apply]
  refine congrArg x1 (funext fun a => ?_)
  match a with
  | ⟨0, _⟩ => rfl
  | ⟨1, _⟩ => exact Fin.ext (Nat.mod_eq_of_lt r.isLt)

/-- Entry r of the flattened second row of the edge array is the edge's target word. -/
theorem colw (x1 : (⟨S2x800000, .i32⟩ : BufTy).Contents (Elt Ideal)) (r : Fin 800000) : val_main_v62 (F := Ideal) x1 (ix1 r) = x1 (ix2 (1 : Fin 2) r) := by
  rw [val_main_v62_apply, val_main_v61_apply]
  refine congrArg x1 (funext fun a => ?_)
  match a with
  | ⟨0, _⟩ => rfl
  | ⟨1, _⟩ => exact Fin.ext (Nat.mod_eq_of_lt r.isLt)

/-- The start column of the first factor's lookup holds, at row r, the wrapped source word. -/
theorem start_src (x1 : (⟨S2x800000, .i32⟩ : BufTy).Contents (Elt Ideal)) (r : Fin 800000) :
    val_main_v83 (F := Ideal) x1 (ix2 r (0 : Fin 1)) = wrap (x1 (ix2 (0 : Fin 2) r)) := by
  rw [val_main_v83_apply]
  refine (congrArg (val_main_v82 (F := Ideal) x1) (funext fun a => ?_ : idx_main_v83 (ix2 r (0 : Fin 1)) = ix1 r)).trans ?_
  · match a with
    | ⟨0, _⟩ => rfl
  · rw [val_main_v82_apply, val_main_v79_apply, val_main_v81_apply, val_main_v78_apply, val_main_v80_apply, roww]
    rfl

/-- The start column of the second factor's lookup holds, at row r, the wrapped target word. -/
theorem start_tgt (x1 : (⟨S2x800000, .i32⟩ : BufTy).Contents (Elt Ideal)) (r : Fin 800000) :
    val_main_v90 (F := Ideal) x1 (ix2 r (0 : Fin 1)) = wrap (x1 (ix2 (1 : Fin 2) r)) := by
  rw [val_main_v90_apply]
  refine (congrArg (val_main_v89 (F := Ideal) x1) (funext fun a => ?_ : idx_main_v90 (ix2 r (0 : Fin 1)) = ix1 r)).trans ?_
  · match a with
    | ⟨0, _⟩ => rfl
  · rw [val_main_v89_apply, val_main_v86_apply, val_main_v88_apply, val_main_v85_apply, val_main_v87_apply, colw]
    rfl

/-- The start column of the projection rows' lookup holds, at row r, the wrapped source word. -/
theorem start_row (x1 : (⟨S2x800000, .i32⟩ : BufTy).Contents (Elt Ideal)) (r : Fin 800000) :
    val_main_v99 (F := Ideal) x1 (ix2 r (0 : Fin 1)) = wrap (x1 (ix2 (0 : Fin 2) r)) := by
  rw [val_main_v99_apply]
  refine (congrArg (val_main_v98 (F := Ideal) x1) (funext fun a => ?_ : idx_main_v99 (ix2 r (0 : Fin 1)) = ix1 r)).trans ?_
  · match a with
    | ⟨0, _⟩ => rfl
  · rw [val_main_v98_apply, val_main_v95_apply, val_main_v97_apply, val_main_v94_apply, val_main_v96_apply, roww]
    rfl

/-- The start column of the final accumulation holds, at row r, the raw target word. -/
theorem start_acc (x1 : (⟨S2x800000, .i32⟩ : BufTy).Contents (Elt Ideal)) (r : Fin 800000) :
    val_main_v105 (F := Ideal) x1 (ix2 r (0 : Fin 1)) = x1 (ix2 (1 : Fin 2) r) := by
  rw [val_main_v105_apply]
  refine (congrArg (val_main_v62 (F := Ideal) x1) (funext fun a => ?_ : idx_main_v105 (ix2 r (0 : Fin 1)) = ix1 r)).trans (colw x1 r)
  match a with
  | ⟨0, _⟩ => rfl

/-- The degree array computed for the second result is the one computed for the first: the same accumulation of
    ones, into zeros, at the same target words. -/
theorem deg_eq (x1 : (⟨S2x800000, .i32⟩ : BufTy).Contents (Elt Ideal)) : val_main_v66 (F := Ideal) x1 = val_main_v12 (F := Ideal) x1 := rfl

/-- The one algebraic step: under the comparison bit c, the factor select c (s * select c 1.0 0.0) 0.0 is
    select c s 0.0, because the word 1.0 is the extended real 1. -/
theorem select_mul_select (c : BitVec 1) (s : EReal) :
    Scalar.select c (s * Scalar.select c (Ideal.ofBits .f32 0x3F800000#32) (Ideal.ofBits .f32 0x00000000#32))
        (Ideal.ofBits .f32 0x00000000#32)
      = Scalar.select c s (Ideal.ofBits .f32 0x00000000#32) := by
  rcases BitVec.eq_zero_or_eq_one c with h | h
  · rw [h, select_zero, select_zero]
  · rw [h, select_one, select_one, select_one, Cert.Consts.ofBits_one, EReal.coe_one, mul_one]

/-- The per-node factor at node p is the specification's dis of the program's own degree array. -/
theorem dis_apply (x1 : (⟨S2x800000, .i32⟩ : BufTy).Contents (Elt Ideal)) (p : Fin 50000) :
    val_main_v77 (F := Ideal) x1 (ix1 p) = dis (fun q => val_main_v12 (F := Ideal) x1 (ix1 q)) p := by
  rw [val_main_v77_apply, val_main_v68_apply, val_main_v76_apply, val_main_v71_apply, val_main_v70_apply,
    val_main_v75_apply, val_main_v74_apply, val_main_v73_apply, val_main_v67_apply, val_main_v69_apply,
    val_main_v72_apply, val_main_call2_v0_apply, val_main_call2_v1_apply, val_main_call3_v1_apply,
    val_main_call3_v0_apply, val_main_cst_15_apply, val_main_cst_16_apply, val_main_cst_17_apply, val_main_cst_18_apply,
    val_main_cst_19_apply, val_main_cst_20_apply]
  rw [deg_eq]
  unfold dis
  beta_reduce
  generalize val_main_v12 (F := Ideal) x1 (ix1 p) = d
  exact select_mul_select (Ideal.cmp .ogt d (Ideal.ofBits .f32 0x00000000#32))
    (Ideal.rsqrt (max d (Ideal.ofBits .f32 0x3F800000#32)))

/-- The edge weight of edge r is the specification's nrm. -/
theorem nrm_apply (x1 : (⟨S2x800000, .i32⟩ : BufTy).Contents (Elt Ideal)) (r : Fin 800000) :
    val_main_v92 (F := Ideal) x1 (ix1 r) = nrm (fun q => val_main_v12 (F := Ideal) x1 (ix1 q)) x1 r := by
  have hsrc : val_main_v84 (F := Ideal) x1 (ix1 r) = dis (fun q => val_main_v12 (F := Ideal) x1 (ix1 q)) (node (x1 (ix2 (0 : Fin 2) r))) := by
    refine (gather_pick_apply (n := 50000) (e := 800000) (by decide) _ (val_main_v77 (F := Ideal) x1)
      (val_main_v83 (F := Ideal) x1) r).trans ?_
    rw [start_src]
    exact dis_apply x1 _
  have htgt : val_main_v91 (F := Ideal) x1 (ix1 r) = dis (fun q => val_main_v12 (F := Ideal) x1 (ix1 q)) (node (x1 (ix2 (1 : Fin 2) r))) := by
    refine (gather_pick_apply (n := 50000) (e := 800000) (by decide) _ (val_main_v77 (F := Ideal) x1)
      (val_main_v90 (F := Ideal) x1) r).trans ?_
    rw [start_tgt]
    exact dis_apply x1 _
  rw [val_main_v92_apply, hsrc, htgt]
  rfl

/-- The message of edge r at channel j is the specification's msg. -/
theorem msg_apply (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x5 : (⟨S128x128, .f32⟩ : BufTy).Contents (Elt Ideal)) (x6 : (⟨S128, .f32⟩ : BufTy).Contents (Elt Ideal)) (r : Fin 800000) (j : Fin 128) :
    val_main_v103 (F := Ideal) x0 x1 x2 x5 x6 (ix2 r j) = msg (fun q => val_main_v12 (F := Ideal) x1 (ix1 q)) x0 x1 x2 x5 x6 r j := by
  have hwt : val_main_v102 (F := Ideal) x1 (ix2 r j) = nrm (fun q => val_main_v12 (F := Ideal) x1 (ix1 q)) x1 r := by
    rw [val_main_v102_apply, val_main_v93_apply]
    refine (congrArg (val_main_v92 (F := Ideal) x1) (funext fun a => ?_ : idx_main_v93 (idx_main_v102 (ix2 r j)) = ix1 r)).trans
      (nrm_apply x1 r)
    match a with
    | ⟨0, _⟩ => rfl
  have hrow : val_main_v100 (F := Ideal) x0 x1 x5 x6 (ix2 r j) = lin x0 x5 x6 (node (x1 (ix2 (0 : Fin 2) r))) j := by
    refine (gather_rows_apply (n := 50000) (d := 128) (e := 800000) (by decide) _ (val_main_v58 (F := Ideal) x0 x5 x6)
      (val_main_v99 (F := Ideal) x1) r j).trans ?_
    rw [start_row]
    exact lin_apply x0 x5 x6 _ j
  rw [val_main_v103_apply, val_main_v101_apply, hwt, hrow]
  rfl

/-- The reference's second result at (n, j) is the specification's out, over the program's own degree array. -/
theorem ref_std (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x5 : (⟨S128x128, .f32⟩ : BufTy).Contents (Elt Ideal)) (x6 : (⟨S128, .f32⟩ : BufTy).Contents (Elt Ideal)) (n : Fin 50000) (j : Fin 128) :
    val_main_v107 (F := Ideal) x0 x1 x2 x5 x6 (ix2 n j)
      = Cert.Gcn.out (fun p => val_main_v12 (F := Ideal) x1 (ix1 p)) x0 x1 x2 x5 x6 n j := by
  have hacc : val_main_v106 (F := Ideal) x0 x1 x2 x5 x6 (ix2 n j)
      = Ideal.ofBits .f32 0x00000000#32
        + ∑ e : Fin 800000, if (x1 (ix2 (1 : Fin 2) e)).toInt = (n.val : Int)
            then msg (fun q => val_main_v12 (F := Ideal) x1 (ix1 q)) x0 x1 x2 x5 x6 e j else 0 := by
    refine (scatterAdd_rows_apply (n := 50000) (d := 128) (e := 800000) _ (val_main_v104 (F := Ideal))
      (val_main_v105 (F := Ideal) x1) (val_main_v103 (F := Ideal) x0 x1 x2 x5 x6) n j).trans ?_
    refine congrArg₂ (· + ·) ?_ (Finset.sum_congr rfl fun e _ => ?_)
    · rw [val_main_v104_apply]
      rfl
    · rw [start_acc, msg_apply]
  rw [val_main_v107_apply, hacc, lin_apply]
  rfl

end Cert.Gcn.RefStd

end
-- ==== Proof.DegBridge.lean ====
/-
  The in-degree, computed alike by the two programs.

  Both programs count the edges into a node by adding a one, for every edge, into an array of zeros at the position the
  edge's target word names: the target words are row 1 of the edge list, sliced out, reshaped to a flat array and laid
  out as a column of start indices.  The two printed terms are the same operations on the same operands, so they are
  equal as soon as the reference's edge list is the one the kernel program was launched with.
-/
import proofs.«174591_j22574348108072_1_alg».proof.Proof.KernelWords
import proofs.«174591_j22574348108072_1_alg».proof.Proof.ReadPatched

set_option maxRecDepth 16384

noncomputable section

namespace Cert.Gcn.DegBridge

open Idealize.ShloMosaic Idealize.ShloMosaic.TcCoe Idealize.SL.Sem Idealize.ShloMosaic.StableHlo Idealize.ShloMosaic.ValueIdx

set_option maxHeartbeats 200000 in
/-- The kernel program's in-degree of node p is the reference's, at the same edge list. -/
theorem deg_agree (m : (ℓ : Loc Cert.KernelIdeal.nD Cert.KernelIdeal.τ Cert.KernelIdeal.sig) → Buf (Elt Ideal) ℓ)
    (c : Dev Cert.KernelIdeal.nD)
    (x1 : (⟨Cert.ReferenceIdeal.S2x800000, .i32⟩ : BufTy).Contents (Elt Ideal))
    (h : x1 = m ((c.tc : Thread Cert.KernelIdeal.nD Cert.KernelIdeal.τ).loc Cert.KernelIdeal.main_arg1))
    (p : Fin 50000) :
    Cert.Gcn.KernelWords.degK m c p = Cert.ReferenceIdeal.ReadP.val_main_v12 (F := Ideal) x1 (ix1 p) := by
  subst h
  rfl

end Cert.Gcn.DegBridge

end
-- ==== Proof.LibPickSum.lean ====
/-
  Entries added into a flat array at positions named by a column of start indices, read at an entry as ONE sum over the
  updates.

  x.at[idx].add(u) for a flat array x : [n], a column idx : [e, 1] of start words and updates u : [e], over the extended
  reals: the entry p of the result is the entry p of x plus the sum, over the updates r whose start word read as a signed
  integer is p, of u r.  An update whose start word names no entry of x (negative, or n and beyond) is dropped; the sum
  is exact, so the order in which colliding updates are added does not matter.  With every update equal to 1 this counts
  the start words that name p.
-/
import Idealize.ShloMosaic.Lib.ValueIdx
import Idealize.ShloMosaic.PureOps.Ideal
import Idealize.ShloMosaic.PureOps.Ideal.Laws

noncomputable section

open scoped BigOperators

namespace Cert.LibPickSum

open Idealize.ShloMosaic Idealize.ShloMosaic.ValueIdx

/-- The dimension numbers of x.at[idx].add(u): x : [n], a column idx : [e, 1], u : [e]. -/
abbrev addPickDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Coordinates

variable {n e w : Nat} (wf : ScatterDims.WF ⟨1, ![n]⟩ ⟨2, ![e, 1]⟩ ⟨1, ![e]⟩ [] [0] [0] 1)
  (idx : IVec ⟨2, ![e, 1]⟩ w) (r : Fin e)

/-- The window of the update r starts at the r-th start word, read signed. -/
theorem start_pick : (addPickDims n e wf).start (ix1 r) idx (0 : Fin 1) = (idx (ix2 r (0 : Fin 1))).toInt := by
  have hmem : (0 : Fin 1) ∈ (addPickDims n e wf).scatterDimsToOperandDims := List.mem_singleton.mpr rfl
  unfold ScatterDims.start
  rw [dif_pos hmem]
  have hsi : (addPickDims n e wf).siIdx (ix1 r) ⟨List.idxOf (0 : Fin 1) (addPickDims n e wf).scatterDimsToOperandDims,
      List.idxOf_lt_length_iff.2 hmem⟩ = ix2 r (0 : Fin 1) := by
    funext b; refine Fin.ext ?_
    match b with
    | ⟨0, _⟩ => rfl
    | ⟨1, _⟩ => rfl
  rw [hsi]

/-- The one operand axis is an inserted window axis: the window coordinate there is 0. -/
theorem window_pick : (addPickDims n e wf).window (ix1 r) (0 : Fin 1) = 0 := by
  unfold ScatterDims.window
  rw [dif_neg (by simp [ScatterDims.sKept, Shape.kept, List.mem_filter, List.mem_finRange])]

end Coordinates

/-- The update r lands on the entry p exactly when the r-th start word, read signed, is p. -/
theorem lands_iff {n e w : Nat} (wf : ScatterDims.WF ⟨1, ![n]⟩ ⟨2, ![e, 1]⟩ ⟨1, ![e]⟩ [] [0] [0] 1)
    (idx : IVec ⟨2, ![e, 1]⟩ w) (r : Fin e) (p : Fin n) :
    (addPickDims n e wf).resultIdx? (ix1 r) idx = some (ix1 p) ↔ (idx (ix2 r (0 : Fin 1))).toInt = (p.val : Int) := by
  constructor
  · intro h
    unfold ScatterDims.resultIdx? at h
    split at h
    · rename_i hin
      have h0 := congrFun (Option.some.inj h) (0 : Fin 1)
      have hv : ((addPickDims n e wf).start (ix1 r) idx (0 : Fin 1)
          + (addPickDims n e wf).window (ix1 r) (0 : Fin 1)).toNat = p.val := congrArg Fin.val h0
      have hnn := (hin (0 : Fin 1)).1
      rw [start_pick, window_pick] at hv hnn
      omega
    · exact absurd h (by simp)
  · intro hp
    have hin : ∀ a : Fin 1, 0 ≤ (addPickDims n e wf).start (ix1 r) idx a + (addPickDims n e wf).window (ix1 r) a
        ∧ (addPickDims n e wf).start (ix1 r) idx a + (addPickDims n e wf).window (ix1 r) a
          < (⟨1, ![n]⟩ : Shape).size a := by
      intro a
      have ha : a = 0 := Subsingleton.elim _ _
      subst ha
      show 0 ≤ (addPickDims n e wf).start (ix1 r) idx (0 : Fin 1) + (addPickDims n e wf).window (ix1 r) (0 : Fin 1)
        ∧ (addPickDims n e wf).start (ix1 r) idx (0 : Fin 1) + (addPickDims n e wf).window (ix1 r) (0 : Fin 1) < (n : Int)
      rw [start_pick, window_pick, hp]
      have := p.isLt
      omega
    unfold ScatterDims.resultIdx?
    rw [dif_pos hin]
    congr 1
    funext a
    refine Fin.ext ?_
    have ha : a = 0 := Subsingleton.elim _ _
    subst ha
    show ((addPickDims n e wf).start (ix1 r) idx (0 : Fin 1) + (addPickDims n e wf).window (ix1 r) (0 : Fin 1)).toNat = p.val
    rw [start_pick, window_pick, hp]
    omega

/-- The accumulating scatter into a flat array at the entry p: the operand's entry plus the updates sent to p. -/
theorem scatterAdd_pick_apply {n e w : Nat} (wf : ScatterDims.WF ⟨1, ![n]⟩ ⟨2, ![e, 1]⟩ ⟨1, ![e]⟩ [] [0] [0] 1)
    (x : FVec Ideal ⟨1, ![n]⟩ .f32) (idx : IVec ⟨2, ![e, 1]⟩ w) (upd : FVec Ideal ⟨1, ![e]⟩ .f32) (p : Fin n) :
    Host.scatterAdd (addPickDims n e wf) x idx upd (ix1 p)
      = x (ix1 p) + ∑ r : Fin e, if (idx (ix2 r (0 : Fin 1))).toInt = (p.val : Int) then upd (ix1 r) else 0 := by
  show x (ix1 p) + ∑ j ∈ Finset.univ.filter (fun j => (addPickDims n e wf).resultIdx? j idx = some (ix1 p)), upd j = _
  congr 1
  rw [Finset.sum_filter, sum_idx1]
  refine Finset.sum_congr rfl fun r _ => ?_
  by_cases hp : (idx (ix2 r (0 : Fin 1))).toInt = (p.val : Int)
  · rw [if_pos hp, if_pos ((lands_iff wf idx r p).mpr hp)]
  · rw [if_neg hp, if_neg (fun h => hp ((lands_iff wf idx r p).mp h))]

end Cert.LibPickSum

end
-- ==== Proof.lean ====
/-
  The certificate of a two-branch graph convolution: a Pallas kernel program against its jnp reference, over the extended
  reals.

  Both programs compute, for the two weight sets (W_mean, b_mean) and (W_std, b_std),
      out(n, j) = sum over the edges e into node n of nrm(e) * (h(source(e), j) + edge_attr(e, j))  +  h(n, j),
  with h = x * W^T + b, nrm(e) the product of the two endpoints' factors 1/sqrt(max(deg, 1)) (zero where deg = 0) and
  deg the number of edges into a node (Proof/Spec.lean states this entry by entry).  The kernel program stacks the two
  weight sets into one 256-column projection (one pallas_call), pads the edge list to a multiple of the edge tile with
  zero weights, forms both branches' messages in one pallas_call, scatter-adds them and slices the two results apart; the
  reference runs the plain formula twice.  They agree because a padded edge's message is zero times something, which is
  zero on the extended reals, and adding zero changes nothing; because the reference's extra factor select(deg > 0, 1, 0)
  is one exactly where its outer select keeps it; and because an exact sum does not depend on its order.  No step needs
  the inputs to be finite.

  The frames of the two kernel programs are the generated ones; the reference's frame is its generated run with the
  results dropped; the idealization rewrote nothing, so preserves is trivial.
-/
import proofs.«174591_j22574348108072_1_alg».proof.Defs
import proofs.«174591_j22574348108072_1_alg».proof.Proof.Gen.Kernel
import proofs.«174591_j22574348108072_1_alg».proof.Proof.Gen.Kernel.Frame
import proofs.«174591_j22574348108072_1_alg».proof.Proof.Gen.KernelIdeal
import proofs.«174591_j22574348108072_1_alg».proof.Proof.Gen.KernelIdeal.Frame
import proofs.«174591_j22574348108072_1_alg».proof.Proof.Gen.ReferenceIdeal
import proofs.«174591_j22574348108072_1_alg».proof.Proof.Gen.Pre_finite_inputs
import proofs.«174591_j22574348108072_1_alg».proof.Proof.RunPatched
import proofs.«174591_j22574348108072_1_alg».proof.Proof.ReadPatched
import proofs.«174591_j22574348108072_1_alg».proof.Proof.KernelRun
import proofs.«174591_j22574348108072_1_alg».proof.Proof.KernelOut
import proofs.«174591_j22574348108072_1_alg».proof.Proof.RefMean
import proofs.«174591_j22574348108072_1_alg».proof.Proof.RefStd
import proofs.«174591_j22574348108072_1_alg».proof.Proof.DegBridge
import proofs.«174591_j22574348108072_1_alg».proof.Proof.LibPickSum
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the two results at the graph convolution of the arguments, entry by entry; the in-degree
    is the same scatter-add of ones in both. -/
theorem algebraic : Cert.algebraic_KernelIdeal_ReferenceIdeal := by
  intro m ρ m' ρ' _ hagree
  refine ⟨fun c => Cert.KernelIdeal.Gen.W15 m ρ c (Proc.devRef .tc Cert.KernelIdeal.main_v51),
    fun c => Cert.KernelIdeal.Gen.W15 m ρ c (Proc.devRef .tc Cert.KernelIdeal.main_v52),
    Cert.Gcn.KernelRun.run_values m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨h0, h1, h2, h3, h4, -, -⟩ := hagree c
    rw [Cert.ReferenceIdeal.ReadP.val_main_v53_eq, h0, h1, h2, h3, h4]
    refine funext fun i => ?_
    obtain ⟨n, j, rfl⟩ : ∃ (n : Fin 50000) (j : Fin 128), i = ix2 n j := ⟨i 0, i 1, eq_ix2 i⟩
    refine (Cert.Gcn.RefMean.ref_mean _ _ _ _ _ n j).trans (Eq.trans ?_ (Cert.Gcn.KernelOut.kernel_mean m ρ c n j).symm)
    exact congrArg (fun d => Cert.Gcn.out d _ _ _ _ _ n j) (funext fun p => (Cert.Gcn.DegBridge.deg_agree m c _ rfl p).symm)
  · obtain ⟨h0, h1, h2, -, -, h5, h6⟩ := hagree c
    rw [Cert.ReferenceIdeal.ReadP.val_main_v107_eq, h0, h1, h2, h5, h6]
    refine funext fun i => ?_
    obtain ⟨n, j, rfl⟩ : ∃ (n : Fin 50000) (j : Fin 128), i = ix2 n j := ⟨i 0, i 1, eq_ix2 i⟩
    refine (Cert.Gcn.RefStd.ref_std _ _ _ _ _ n j).trans (Eq.trans ?_ (Cert.Gcn.KernelOut.kernel_std m ρ c n j).symm)
    exact congrArg (fun d => Cert.Gcn.out d _ _ _ _ _ n j) (funext fun p => (Cert.Gcn.DegBridge.deg_agree m c _ rfl p).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
